-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 16
  | .vmem => 16
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .bf16⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1x8192, .f32⟩
  | .hbm, ⟨9, _⟩ => ⟨S8192x1, .i32⟩
  | .hbm, ⟨10, _⟩ => ⟨S1x8192, .i32⟩
  | .hbm, ⟨11, _⟩ => ⟨S8192x1, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .i32⟩
  | .local _ .vmem, ⟨9, _⟩ => ⟨S1024x1, .i32⟩
  | .local _ .vmem, ⟨10, _⟩ => ⟨S1x1024, .i32⟩
  | .local _ .vmem, ⟨11, _⟩ => ⟨S1x1024, .i32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_23 : BitVec 32 := 0#32
  let v42 : BitVec 1 := Scalar.cmpi .ne v41 c0_i32_23
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bitsLt_bf16_f32 : FTy.bits .bf16 < FTy.bits .f32
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  broadcasts_S1024x1_S1024x1024 : S1024x1.Broadcasts S1024x1024
  reduces_S1024x1024_S1024 : S1024x1024.Reduces [1] S1024
  shapeCasts_S1024_S1024x1 : S1024.ShapeCasts S1024x1
  reducesTo_S8192x1_S_d0_1 : S8192x1.ReducesTo [0, 1] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .bf16 = 32 ∨ (Rect.block (s := S8192x128) S1024x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .i32 = 32 ∨ (Rect.block (s := S1x8192) S1x1024.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 49
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S8192x8192, .f32⟩
  | .hbm, ⟨35, _⟩ => ⟨S8192x8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_call2_v0 : Ref sig .tc := ⟨.hbm, 33, rfl⟩
abbrev main_call2_v1 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_call3_cst : Ref sig .tc := ⟨.hbm, 42, rfl⟩
abbrev main_call3_v0 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KbRuns.lean ====
/-
  What the three runs of the mining kernel's body share. The grid is 8 row blocks by 8 column blocks, walked row block
  by row block; within a row block the column blocks come in order. At the first column block the body resets its two
  running extrema (a column of 1024 maxima seeded with minus infinity, a column of 1024 minima seeded with plus
  infinity); at every column block it folds that block's row maxima and row minima into them; at the last column block it
  also finishes the 1024 rows' losses into the output block. So a point is in one of three cases, by its position
  modulo 8: 0 (reset, fold), 1 to 6 (fold), 7 (fold, finish). The output block is written back only at the points of the
  last case and is left alone at the others.
-/
import proofs.«163923_j45037027066265_2_alg».proof.Proof.Gen.Kernel.Launch
import proofs.«163923_j45037027066265_2_alg».proof.Proof.Gen.Kernel.Skeleton
import proofs.«163923_j45037027066265_2_alg».proof.Proof.Gen.Kernel.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core c's buffers after the nine host operations before the region (the rounding of the embeddings, their
    squared norms, and the two layouts of the norms and of the labels). -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Each input window's buffer holds its block at every point, fetched there or not -/

theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the grid -/

/-- "This is the first column block". -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)
/-- "This is the last column block". -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the output window is idle -/

theorem idle6_of_notLast : ∀ t : Fin cfg0.N, ¬condLast (grid0.coords t) → cfg0.idle 6 (grid0.coords t) = true := by decide +kernel
theorem noFlush6_of_notLast : ∀ t : Fin cfg0.N, ¬condLast (grid0.coords t) → (cfg0.win 6).flush t = false := by decide +kernel
theorem live6_of_last : ∀ t : Fin cfg0.N, condLast (grid0.coords t) → cfg0.idle 6 (grid0.coords t) = false := by decide +kernel

/-! ## The memrefs the body is called with -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
/-- The two running extrema live in two scratch columns of the kernel's own. -/
abbrev scMax : Memref sig .tc .vmem S1024x1 .f32 := Memref.whole cc0_scratch0
abbrev scMin : Memref sig .tc .vmem S1024x1 .f32 := Memref.whole cc0_scratch1
abbrev VOut : View sig .tc .vmem S1024x1 .f32 := (Memref.whole cc0_stg6_0 : Memref sig .tc .vmem S1024x1 .f32).view
abbrev VMax : View sig .tc .vmem S1024x1 .f32 := scMax.view
abbrev VMin : View sig .tc .vmem S1024x1 .f32 := scMin.view

/-- The scoped buffers the pipeline does not stage are the two scratch columns. -/
theorem scopedRest_scratch (c : Dev nD) :
    (Pipeline.scopedRest (Ix := Unit) (Name := ℕ) (U := UR sig nD τ) (Lvl := ℕ) (Val := Elt F) spec0 c : sProp 𝕄)
      = iprop((∃ d, owns (c : Thread nD τ) scMax fullShare d) ∗ (∃ d, owns (c : Thread nD τ) scMin fullShare d)) := by
  rw [scopedRest0_eq]; simp only [scMax, scMin, owns_whole]; try rfl

end Cert.Kernel.Hand

end
-- ==== Proof.KbRunA.lean ====
/-
  The body's run at the first column block of a row block (reset, then fold): on whole staging memrefs holding the six input blocks, the body runs to the
  continuation with the inputs as they were, the output block untouched, and the two running extrema with what the
  body stored into them; the stored pieces are found by running the body.
-/
import proofs.«163923_j45037027066265_2_alg».proof.Proof.KbRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i)
    (x0 : Vec F S1024x128 .bf16) (x1 : Vec F S1024x128 .bf16) (x2 : Vec F S1024x1 .f32) (x3 : Vec F S1x1024 .f32) (x4 : Vec F S1024x1 .i32) (x5 : Vec F S1x1024 .i32) :
    Σ' (L6 : List (View.Piece (Elt F) S1024x1 .f32)) (LS0 : List (View.Piece (Elt F) S1024x1 .f32)), { LS1 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__mine_kernel_eq_skeleton]; unfold cc0__mine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.KbRunB.lean ====
/-
  The body's run at a middle column block (fold): on whole staging memrefs holding the six input blocks, the body runs to the
  continuation with the inputs as they were, the output block untouched, and the two running extrema with what the
  body stored into them; the stored pieces are found by running the body.
-/
import proofs.«163923_j45037027066265_2_alg».proof.Proof.KbRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i)
    (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (LS0 : List (View.Piece (Elt F) S1024x1 .f32)), { LS1 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__mine_kernel_eq_skeleton]; unfold cc0__mine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.Kernel.Hand

end
-- ==== Proof.KbRunC.lean ====
/-
  The body's run at the last column block of a row block (fold, then finish): on whole staging memrefs holding the six input blocks, the body runs to the
  continuation with the inputs as they were, the output block with the row losses stored, and the two running extrema with what the
  body stored into them; the stored pieces are found by running the body.
-/
import proofs.«163923_j45037027066265_2_alg».proof.Proof.KbRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i)
    (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__mine_kernel_eq_skeleton]; unfold cc0__mine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.Kernel.Hand

end
-- ==== Proof.KbFrame.lean ====
/-
  The mining region's proof data and body obligation. After the body at point t the six input buffers hold their blocks;
  the running maxima and minima hold what the point's case stored, computed from the point's blocks and (outside the
  first column block) from what the previous point left; the output buffer holds the finished losses at the last column
  block and is untouched elsewhere. The recursion over points follows the three cases.
-/
import proofs.«163923_j45037027066265_2_alg».proof.Proof.KbRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the running maxima, the running minima: its stored pieces read back. -/
def smaxA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) : Vec F S1024x1 .f32 :=
  VMax.read (Elt F) (VMax.writes (Elt F) VMax.junk (kernelRunA c i arg2 harg2 arg3 harg3 arg4 harg4 arg5 harg5 arg6 harg6 arg7 harg7 arg8 harg8 arg9 harg9 arg10 harg10 hcF hcL x0 x1 x2 x3 x4 x5).2.1)
def sminA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) : Vec F S1024x1 .f32 :=
  VMin.read (Elt F) (VMin.writes (Elt F) VMin.junk (kernelRunA c i arg2 harg2 arg3 harg3 arg4 harg4 arg5 harg5 arg6 harg6 arg7 harg7 arg8 harg8 arg9 harg9 arg10 harg10 hcF hcL x0 x1 x2 x3 x4 x5).2.2.1)
def outA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) : Vec F S1024x1 .f32 :=
  VOut.read (Elt F) (VOut.writes (Elt F) VOut.junk (kernelRunA c i arg2 harg2 arg3 harg3 arg4 harg4 arg5 harg5 arg6 harg6 arg7 harg7 arg8 harg8 arg9 harg9 arg10 harg10 hcF hcL x0 x1 x2 x3 x4 x5).1)
theorem coverMaxA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (y : S1024x1.Idx) : ∃ pc ∈ (kernelRunA c i arg2 harg2 arg3 harg3 arg4 harg4 arg5 harg5 arg6 harg6 arg7 harg7 arg8 harg8 arg9 harg9 arg10 harg10 hcF hcL x0 x1 x2 x3 x4 x5).2.1, y ∈ pc.1.set :=
  View.cover_of_tiledL (kernelRunA c i arg2 harg2 arg3 harg3 arg4 harg4 arg5 harg5 arg6 harg6 arg7 harg7 arg8 harg8 arg9 harg9 arg10 harg10 hcF hcL x0 x1 x2 x3 x4 x5).2.1 S1024x1.size (by sl_kernel_rfl) y
theorem coverMinA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (y : S1024x1.Idx) : ∃ pc ∈ (kernelRunA c i arg2 harg2 arg3 harg3 arg4 harg4 arg5 harg5 arg6 harg6 arg7 harg7 arg8 harg8 arg9 harg9 arg10 harg10 hcF hcL x0 x1 x2 x3 x4 x5).2.2.1, y ∈ pc.1.set :=
  View.cover_of_tiledL (kernelRunA c i arg2 harg2 arg3 harg3 arg4 harg4 arg5 harg5 arg6 harg6 arg7 harg7 arg8 harg8 arg9 harg9 arg10 harg10 hcF hcL x0 x1 x2 x3 x4 x5).2.2.1 S1024x1.size (by sl_kernel_rfl) y

/-- What case B leaves in the running maxima, the running minima: its stored pieces read back. -/
def smaxB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VMax.read (Elt F) (VMax.writes (Elt F) VMax.junk (kernelRunB c i arg2 harg2 arg3 harg3 arg4 harg4 arg5 harg5 arg6 harg6 arg7 harg7 arg8 harg8 arg9 harg9 arg10 harg10 hcF hcL x0 x1 x2 x3 x4 x5 xs0 xs1).2.1)
def sminB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VMin.read (Elt F) (VMin.writes (Elt F) VMin.junk (kernelRunB c i arg2 harg2 arg3 harg3 arg4 harg4 arg5 harg5 arg6 harg6 arg7 harg7 arg8 harg8 arg9 harg9 arg10 harg10 hcF hcL x0 x1 x2 x3 x4 x5 xs0 xs1).2.2.1)
def outB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VOut.read (Elt F) (VOut.writes (Elt F) VOut.junk (kernelRunB c i arg2 harg2 arg3 harg3 arg4 harg4 arg5 harg5 arg6 harg6 arg7 harg7 arg8 harg8 arg9 harg9 arg10 harg10 hcF hcL x0 x1 x2 x3 x4 x5 xs0 xs1).1)
theorem coverMaxB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) : ∃ pc ∈ (kernelRunB c i arg2 harg2 arg3 harg3 arg4 harg4 arg5 harg5 arg6 harg6 arg7 harg7 arg8 harg8 arg9 harg9 arg10 harg10 hcF hcL x0 x1 x2 x3 x4 x5 xs0 xs1).2.1, y ∈ pc.1.set :=
  View.cover_of_tiledL (kernelRunB c i arg2 harg2 arg3 harg3 arg4 harg4 arg5 harg5 arg6 harg6 arg7 harg7 arg8 harg8 arg9 harg9 arg10 harg10 hcF hcL x0 x1 x2 x3 x4 x5 xs0 xs1).2.1 S1024x1.size (by sl_kernel_rfl) y
theorem coverMinB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) : ∃ pc ∈ (kernelRunB c i arg2 harg2 arg3 harg3 arg4 harg4 arg5 harg5 arg6 harg6 arg7 harg7 arg8 harg8 arg9 harg9 arg10 harg10 hcF hcL x0 x1 x2 x3 x4 x5 xs0 xs1).2.2.1, y ∈ pc.1.set :=
  View.cover_of_tiledL (kernelRunB c i arg2 harg2 arg3 harg3 arg4 harg4 arg5 harg5 arg6 harg6 arg7 harg7 arg8 harg8 arg9 harg9 arg10 harg10 hcF hcL x0 x1 x2 x3 x4 x5 xs0 xs1).2.2.1 S1024x1.size (by sl_kernel_rfl) y

/-- What case C leaves in the running maxima, the running minima and the output block: its stored pieces read back. -/
def smaxC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VMax.read (Elt F) (VMax.writes (Elt F) VMax.junk (kernelRunC c i arg2 harg2 arg3 harg3 arg4 harg4 arg5 harg5 arg6 harg6 arg7 harg7 arg8 harg8 arg9 harg9 arg10 harg10 hcF hcL x0 x1 x2 x3 x4 x5 xs0 xs1).2.1)
def sminC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VMin.read (Elt F) (VMin.writes (Elt F) VMin.junk (kernelRunC c i arg2 harg2 arg3 harg3 arg4 harg4 arg5 harg5 arg6 harg6 arg7 harg7 arg8 harg8 arg9 harg9 arg10 harg10 hcF hcL x0 x1 x2 x3 x4 x5 xs0 xs1).2.2.1)
def outC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VOut.read (Elt F) (VOut.writes (Elt F) VOut.junk (kernelRunC c i arg2 harg2 arg3 harg3 arg4 harg4 arg5 harg5 arg6 harg6 arg7 harg7 arg8 harg8 arg9 harg9 arg10 harg10 hcF hcL x0 x1 x2 x3 x4 x5 xs0 xs1).1)
theorem coverMaxC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) : ∃ pc ∈ (kernelRunC c i arg2 harg2 arg3 harg3 arg4 harg4 arg5 harg5 arg6 harg6 arg7 harg7 arg8 harg8 arg9 harg9 arg10 harg10 hcF hcL x0 x1 x2 x3 x4 x5 xs0 xs1).2.1, y ∈ pc.1.set :=
  View.cover_of_tiledL (kernelRunC c i arg2 harg2 arg3 harg3 arg4 harg4 arg5 harg5 arg6 harg6 arg7 harg7 arg8 harg8 arg9 harg9 arg10 harg10 hcF hcL x0 x1 x2 x3 x4 x5 xs0 xs1).2.1 S1024x1.size (by sl_kernel_rfl) y
theorem coverMinC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) : ∃ pc ∈ (kernelRunC c i arg2 harg2 arg3 harg3 arg4 harg4 arg5 harg5 arg6 harg6 arg7 harg7 arg8 harg8 arg9 harg9 arg10 harg10 hcF hcL x0 x1 x2 x3 x4 x5 xs0 xs1).2.2.1, y ∈ pc.1.set :=
  View.cover_of_tiledL (kernelRunC c i arg2 harg2 arg3 harg3 arg4 harg4 arg5 harg5 arg6 harg6 arg7 harg7 arg8 harg8 arg9 harg9 arg10 harg10 hcF hcL x0 x1 x2 x3 x4 x5 xs0 xs1).2.2.1 S1024x1.size (by sl_kernel_rfl) y
theorem coverOutC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) : ∃ pc ∈ (kernelRunC c i arg2 harg2 arg3 harg3 arg4 harg4 arg5 harg5 arg6 harg6 arg7 harg7 arg8 harg8 arg9 harg9 arg10 harg10 hcF hcL x0 x1 x2 x3 x4 x5 xs0 xs1).1, y ∈ pc.1.set :=
  View.cover_of_tiledL (kernelRunC c i arg2 harg2 arg3 harg3 arg4 harg4 arg5 harg5 arg6 harg6 arg7 harg7 arg8 harg8 arg9 harg9 arg10 harg10 hcF hcL x0 x1 x2 x3 x4 x5 xs0 xs1).1 S1024x1.size (by sl_kernel_rfl) y

/-! ## What the output buffer and the two running extrema hold after each point -/

def outsAt (c : Dev nD) : (n : ℕ) → n < cfg0.N → Vec F S1024x1 .f32 × Vec F S1024x1 .f32 × Vec F S1024x1 .f32
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scMax (Memref.isWhole_whole _) scMin (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), smaxA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scMax (Memref.isWhole_whole _) scMin (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sminA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scMax (Memref.isWhole_whole _) scMin (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h7 : (n + 1) % 8 = 7 then
        False.elim (by omega)
      else
        (outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) ((hcondFirst ⟨n + 1, hn⟩).mpr h0) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), smaxA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) ((hcondFirst ⟨n + 1, hn⟩).mpr h0) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sminA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) ((hcondFirst ⟨n + 1, hn⟩).mpr h0) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h7 : (n + 1) % 8 = 7 then
        (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) (fun h => h0 ((hcondFirst ⟨n + 1, hn⟩).mp h)) ((hcondLast ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, smaxC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) (fun h => h0 ((hcondFirst ⟨n + 1, hn⟩).mp h)) ((hcondLast ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, sminC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) (fun h => h0 ((hcondFirst ⟨n + 1, hn⟩).mp h)) ((hcondLast ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2)
      else
        (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) (fun h => h0 ((hcondFirst ⟨n + 1, hn⟩).mp h)) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, smaxB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) (fun h => h0 ((hcondFirst ⟨n + 1, hn⟩).mp h)) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, sminB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) (fun h => h0 ((hcondFirst ⟨n + 1, hn⟩).mp h)) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2)

theorem outsAt_A (c : Dev nD) (t : Fin cfg0.N) (h0 : t.val % 8 = 0) (h7 : ¬t.val % 8 = 7) :
    outsAt m c t.val t.isLt = (outA c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((hcondFirst t).mpr h0) (fun h => h7 ((hcondLast t).mp h)) (iblk m c 0 t) (iblk m c 1 t) (iblk m c 2 t) (iblk m c 3 t) (iblk m c 4 t) (iblk m c 5 t), smaxA c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((hcondFirst t).mpr h0) (fun h => h7 ((hcondLast t).mp h)) (iblk m c 0 t) (iblk m c 1 t) (iblk m c 2 t) (iblk m c 3 t) (iblk m c 4 t) (iblk m c 5 t), sminA c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((hcondFirst t).mpr h0) (fun h => h7 ((hcondLast t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h7).trans rfl)

theorem outsAt_B (c : Dev nD) (t : Fin cfg0.N) (h0 : ¬t.val % 8 = 0) (h7 : ¬t.val % 8 = 7) :
    outsAt m c t.val t.isLt = (outB c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) (fun h => h7 ((hcondLast t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, smaxB c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) (fun h => h7 ((hcondLast t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, sminB c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) (fun h => h7 ((hcondLast t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h7).trans rfl)

theorem outsAt_C (c : Dev nD) (t : Fin cfg0.N) (h0 : ¬t.val % 8 = 0) (h7 : t.val % 8 = 7) :
    outsAt m c t.val t.isLt = (outC c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) ((hcondLast t).mpr h7) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, smaxC c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) ((hcondLast t).mpr h7) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, sminC c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) ((hcondLast t).mpr h7) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h7).trans rfl)

/-- The invariant between points: before the first point the two scratch columns at anything; afterwards each at what
    the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scMax fullShare ((outsAt m c n hn).2.1) ∗ owns (c : Thread nD τ) scMin fullShare ((outsAt m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scMax fullShare ((outsAt m c n hn).2.1) ∗ owns (c : Thread nD τ) scMin fullShare ((outsAt m c n hn).2.2)) := rfl
theorem PhiS_pos (c : Dev nD) (n : ℕ) (h : n ≤ cfg0.N) (hz : n ≠ 0) :
    PhiS m c n h = iprop(owns (c : Thread nD τ) scMax fullShare ((outsAt m c (n - 1) (by omega)).2.1) ∗ owns (c : Thread nD τ) scMin fullShare ((outsAt m c (n - 1) (by omega)).2.2)) := by
  cases n with
  | zero => exact absurd rfl hz
  | succ n => rfl

/-! ## The proof data -/

/-- The embeddings' array is read by two windows (the row block and the column block): each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t.val t.isLt).1 := by dsimp only [dats]
theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d
theorem before_3 (c : Dev nD) (t : Fin cfg0.N) (d) : (dats m 0 c).before 3 t d = iblk m c 3 t :=
  before_in_3 m (dats m 0 c) (A_eq m c 3) (after_3 m c) t d
theorem before_4 (c : Dev nD) (t : Fin cfg0.N) (d) : (dats m 0 c).before 4 t d = iblk m c 4 t :=
  before_in_4 m (dats m 0 c) (A_eq m c 4) (after_4 m c) t d
theorem before_5 (c : Dev nD) (t : Fin cfg0.N) (d) : (dats m 0 c).before 5 t d = iblk m c 5 t :=
  before_in_5 m (dats m 0 c) (A_eq m c 5) (after_5 m c) t d
theorem live_in_0 : ∀ t : Fin cfg0.N, cfg0.idle 0 (grid0.coords t) = false := fun _ => rfl
theorem live_in_1 : ∀ t : Fin cfg0.N, cfg0.idle 1 (grid0.coords t) = false := fun _ => rfl
theorem live_in_2 : ∀ t : Fin cfg0.N, cfg0.idle 2 (grid0.coords t) = false := fun _ => rfl
theorem live_in_3 : ∀ t : Fin cfg0.N, cfg0.idle 3 (grid0.coords t) = false := fun _ => rfl
theorem live_in_4 : ∀ t : Fin cfg0.N, cfg0.idle 4 (grid0.coords t) = false := fun _ => rfl
theorem live_in_5 : ∀ t : Fin cfg0.N, cfg0.idle 5 (grid0.coords t) = false := fun _ => rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h7 : t.val % 8 = 7
    · exfalso; omega
    · rw [show (dats m 0 c).leavesExact 0 t = owns (c : Thread nD τ) (ms0 t) fullShare ((dats m 0 c).after 0 t) from by
        unfold Dat.leavesExact; rw [live_in_0 t], after_0]
      rw [show (dats m 0 c).leavesExact 1 t = owns (c : Thread nD τ) (ms1 t) fullShare ((dats m 0 c).after 1 t) from by
        unfold Dat.leavesExact; rw [live_in_1 t], after_1]
      rw [show (dats m 0 c).leavesExact 2 t = owns (c : Thread nD τ) (ms2 t) fullShare ((dats m 0 c).after 2 t) from by
        unfold Dat.leavesExact; rw [live_in_2 t], after_2]
      rw [show (dats m 0 c).leavesExact 3 t = owns (c : Thread nD τ) (ms3 t) fullShare ((dats m 0 c).after 3 t) from by
        unfold Dat.leavesExact; rw [live_in_3 t], after_3]
      rw [show (dats m 0 c).leavesExact 4 t = owns (c : Thread nD τ) (ms4 t) fullShare ((dats m 0 c).after 4 t) from by
        unfold Dat.leavesExact; rw [live_in_4 t], after_4]
      rw [show (dats m 0 c).leavesExact 5 t = owns (c : Thread nD τ) (ms5 t) fullShare ((dats m 0 c).after 5 t) from by
        unfold Dat.leavesExact; rw [live_in_5 t], after_5]
      rw [Dat.leavesExact_idle (dats m 0 c) 6 t (idle6_of_notLast t (fun h => h7 ((hcondLast t).mp h))) (noFlush6_of_notLast t (fun h => h7 ((hcondLast t).mp h)))]
      rw [outsAt_A m c t h0 h7]
      unfold smaxA sminA; (try dsimp only)
      by_cases hz : t.val = 0
      · rw [PhiS_castSucc m c t, PhiS_zero m c _ _ hz, scopedRest_scratch]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((hcondFirst t).mpr h0) (fun h => h7 ((hcondLast t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1]
        · isplitl [HS0]
          · unfold owns; iexists _; isplitr
            swap; · iexact HS0
            ipureintro; exact View.read_writes_of_cover _ _ _ _ _ (coverMaxA c _ _ _ _ _ _ _ _ _ _ _ _ _ _ _ _ _ _ _ _ _ _ _ _ _ _ _)
          unfold owns; iexists _; isplitr
          swap; · iexact HS1
          ipureintro; exact View.read_writes_of_cover _ _ _ _ _ (coverMinA c _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((hcondFirst t).mpr h0) (fun h => h7 ((hcondLast t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1]
        · isplitl [HS0]
          · unfold owns; iexists _; isplitr
            swap; · iexact HS0
            ipureintro; exact View.read_writes_of_cover _ _ _ _ _ (coverMaxA c _ _ _ _ _ _ _ _ _ _ _ _ _ _ _ _ _ _ _ _ _ _ _ _ _ _ _)
          unfold owns; iexists _; isplitr
          swap; · iexact HS1
          ipureintro; exact View.read_writes_of_cover _ _ _ _ _ (coverMinA c _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h7 : t.val % 8 = 7
    · rw [show (dats m 0 c).leavesExact 0 t = owns (c : Thread nD τ) (ms0 t) fullShare ((dats m 0 c).after 0 t) from by
        unfold Dat.leavesExact; rw [live_in_0 t], after_0]
      rw [show (dats m 0 c).leavesExact 1 t = owns (c : Thread nD τ) (ms1 t) fullShare ((dats m 0 c).after 1 t) from by
        unfold Dat.leavesExact; rw [live_in_1 t], after_1]
      rw [show (dats m 0 c).leavesExact 2 t = owns (c : Thread nD τ) (ms2 t) fullShare ((dats m 0 c).after 2 t) from by
        unfold Dat.leavesExact; rw [live_in_2 t], after_2]
      rw [show (dats m 0 c).leavesExact 3 t = owns (c : Thread nD τ) (ms3 t) fullShare ((dats m 0 c).after 3 t) from by
        unfold Dat.leavesExact; rw [live_in_3 t], after_3]
      rw [show (dats m 0 c).leavesExact 4 t = owns (c : Thread nD τ) (ms4 t) fullShare ((dats m 0 c).after 4 t) from by
        unfold Dat.leavesExact; rw [live_in_4 t], after_4]
      rw [show (dats m 0 c).leavesExact 5 t = owns (c : Thread nD τ) (ms5 t) fullShare ((dats m 0 c).after 5 t) from by
        unfold Dat.leavesExact; rw [live_in_5 t], after_5]
      rw [show (dats m 0 c).leavesExact 6 t = owns (c : Thread nD τ) (ms6 t) fullShare ((dats m 0 c).after 6 t) from by
        unfold Dat.leavesExact; rw [live6_of_last t ((hcondLast t).mpr h7)], after_6]
      rw [outsAt_C m c t h0 h7]
      unfold outC smaxC sminC; (try dsimp only)
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRunC c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) ((hcondLast t).mpr h7) (iblk m c 0 t) (iblk m c 1 t) (iblk m c 2 t) (iblk m c 3 t) (iblk m c 4 t) (iblk m c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HS0 HS1]
        · isplitl [HS0]
          · unfold owns; iexists _; isplitr
            swap; · iexact HS0
            ipureintro; exact View.read_writes_of_cover _ _ _ _ _ (coverMaxC c _ _ _ _ _ _ _ _ _ _ _ _ _ _ _ _ _ _ _ _ _ _ _ _ _ _ _ _ _)
          unfold owns; iexists _; isplitr
          swap; · iexact HS1
          ipureintro; exact View.read_writes_of_cover _ _ _ _ _ (coverMinC c _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverOutC c _ _ _ _ _ _ _ _ _ _ _ _ _ _ _ _ _ _ _ _ _ _ _ _ _ _ _ _ _)
    · rw [show (dats m 0 c).leavesExact 0 t = owns (c : Thread nD τ) (ms0 t) fullShare ((dats m 0 c).after 0 t) from by
        unfold Dat.leavesExact; rw [live_in_0 t], after_0]
      rw [show (dats m 0 c).leavesExact 1 t = owns (c : Thread nD τ) (ms1 t) fullShare ((dats m 0 c).after 1 t) from by
        unfold Dat.leavesExact; rw [live_in_1 t], after_1]
      rw [show (dats m 0 c).leavesExact 2 t = owns (c : Thread nD τ) (ms2 t) fullShare ((dats m 0 c).after 2 t) from by
        unfold Dat.leavesExact; rw [live_in_2 t], after_2]
      rw [show (dats m 0 c).leavesExact 3 t = owns (c : Thread nD τ) (ms3 t) fullShare ((dats m 0 c).after 3 t) from by
        unfold Dat.leavesExact; rw [live_in_3 t], after_3]
      rw [show (dats m 0 c).leavesExact 4 t = owns (c : Thread nD τ) (ms4 t) fullShare ((dats m 0 c).after 4 t) from by
        unfold Dat.leavesExact; rw [live_in_4 t], after_4]
      rw [show (dats m 0 c).leavesExact 5 t = owns (c : Thread nD τ) (ms5 t) fullShare ((dats m 0 c).after 5 t) from by
        unfold Dat.leavesExact; rw [live_in_5 t], after_5]
      rw [Dat.leavesExact_idle (dats m 0 c) 6 t (idle6_of_notLast t (fun h => h7 ((hcondLast t).mp h))) (noFlush6_of_notLast t (fun h => h7 ((hcondLast t).mp h)))]
      rw [outsAt_B m c t h0 h7]
      unfold smaxB sminB; (try dsimp only)
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRunB c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) (fun h => h7 ((hcondLast t).mp h)) (iblk m c 0 t) (iblk m c 1 t) (iblk m c 2 t) (iblk m c 3 t) (iblk m c 4 t) (iblk m c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1]
        · isplitl [HS0]
          · unfold owns; iexists _; isplitr
            swap; · iexact HS0
            ipureintro; exact View.read_writes_of_cover _ _ _ _ _ (coverMaxB c _ _ _ _ _ _ _ _ _ _ _ _ _ _ _ _ _ _ _ _ _ _ _ _ _ _ _ _ _)
          unfold owns; iexists _; isplitr
          swap; · iexact HS1
          ipureintro; exact View.read_writes_of_cover _ _ _ _ _ (coverMinB c _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KbLaunch.lean ====
/-
  The launch. @main is nine host operations, the mining region, and four more host operations (the mean). The region
  reads the rounded embeddings through TWO windows, a row block and a column block of the one array: at the region's
  entry that array is split into two half shares, one per window, and at its exit the halves, both still at the entry
  contents since neither window writes, are joined again. Every other unscoped buffer is either the array of exactly one
  window or bypasses the region. The run ends with every unscoped buffer at the value the last host operations leave,
  computed from the output array as the region's write-backs left it.
-/
import proofs.«163923_j45037027066265_2_alg».proof.Proof.KbFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev R (c : Dev nD) : sProp 𝕄 := iprop(∃ W, owes (c : Thread nD τ) (0 : CellTallies nD τ sig Unit) W)

/-- The launch memory as a valuation. -/
abbrev Vm (c : Dev nD) : Valuation τ sig (Elt F) := fun b => m (c, b)

/-- The output array after the region's write-backs. -/
def outFinal (c : Dev nD) : Buf (Elt F) ((c : Thread nD τ).loc main_v8) := (dats m 0 c).arrAt 6 cfg0.N

/-- The buffers as the region leaves them: the output array rewritten, everything else as the region found it. -/
def W1 (c : Dev nD) : Valuation τ sig (Elt F) := Function.update (V0 m c) (Proc.devRef .tc main_v8) (outFinal m c)
/-- And at the end of @main. -/
abbrev Wfin (c : Dev nD) : Valuation τ sig (Elt F) := StableHlo.after hostOps1 (W1 m c)

theorem W1_of_ne (c : Dev nD) (b : Ref sig .tc) (hb : b ≠ main_v8) : W1 m c (Proc.devRef .tc b) = V m c b :=
  Function.update_of_ne (StableHlo.devRef_ne_of_ne hb) _ _
theorem W1_self (c : Dev nD) : W1 m c (Proc.devRef .tc main_v8) = outFinal m c := Function.update_self _ _ _

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-! ## The windows' arrays, listed -/

theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v4) ↦{fullShare} W main_v4) ∗ (((c : Thread nD τ).loc main_v5) ↦{fullShare} W main_v5) ∗ (((c : Thread nD τ).loc main_v6) ↦{fullShare} W main_v6) ∗ (((c : Thread nD τ).loc main_v7) ↦{fullShare} W main_v7) ∗ (((c : Thread nD τ).loc main_v8) ↦{fullShare} W main_v8)) := by
  unfold Pipeline.arrBufs
  exact bigSep_eq_bigSepL_of_eq [main_v0, main_v4, main_v5, main_v6, main_v7, main_v8] (by decide) (by decide) _

theorem arrays_list (c : Dev nD) (Fw : (w : Fin cfg0.W) → Buf (Elt F) ((cfg0.win w).arr.view.loc (c : Thread nD τ))) :
    ((dats m 0 c).arrays Fw : sProp 𝕄)
      = iprop((((c : Thread nD τ).loc main_v0) ↦{fullShare.left} Fw 0) ∗ (((c : Thread nD τ).loc main_v0) ↦{fullShare.right} Fw 1) ∗ (((c : Thread nD τ).loc main_v4) ↦{fullShare} Fw 2)
          ∗ (((c : Thread nD τ).loc main_v5) ↦{fullShare} Fw 3) ∗ (((c : Thread nD τ).loc main_v6) ↦{fullShare} Fw 4) ∗ (((c : Thread nD τ).loc main_v7) ↦{fullShare} Fw 5) ∗ (((c : Thread nD τ).loc main_v8) ↦{fullShare} Fw 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ]
  rfl

/-- ENTRY: the distinct buffers behind the arrays make the pipeline's arrays, the shared one split in two. -/
theorem arrays_in (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_list]
  have e : ∀ w, (dats m 0 c).arrAt w 0 = V m c (Pipeline.arrRef spec0 w) := fun w => A_eq m c w
  simp only [e]
  iintro ⟨H0, H4, H5, H6, H7, H8⟩
  ihave H0 := (pointsTo_share (PosShare.mem_left_op_right fullShare)).1 $$ H0
  icases H0 with ⟨H0l, H0r⟩
  isplitl [H0l]; · iexact H0l
  isplitl [H0r]; · iexact H0r
  isplitl [H4]; · iexact H4
  isplitl [H5]; · iexact H5
  isplitl [H6]; · iexact H6
  isplitl [H7]; · iexact H7
  iexact H8

/-- EXIT: the arrays after the run make the distinct buffers behind them again, the two halves of the shared one,
    neither written, joined. -/
theorem arrays_out (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W1 m c (Proc.devRef .tc b)) := by
  rw [arrBufs_list, arrays_list]
  have e : ∀ w, (cfg0.win w).isOut = false → (dats m 0 c).arrAt w cfg0.N = V m c (Pipeline.arrRef spec0 w) :=
    fun w hw => ((dats m 0 c).arrAt_in w hw _).trans (A_eq m c w)
  rw [e 0 rfl, e 1 rfl, e 2 rfl, e 3 rfl, e 4 rfl, e 5 rfl]
  rw [W1_of_ne m c main_v0 (by decide), W1_of_ne m c main_v4 (by decide), W1_of_ne m c main_v5 (by decide), W1_of_ne m c main_v6 (by decide),
    W1_of_ne m c main_v7 (by decide), W1_self]
  iintro ⟨H0l, H0r, H4, H5, H6, H7, H8⟩
  ihave H0 := (pointsTo_share (PosShare.mem_left_op_right fullShare)).2 $$ [H0l H0r]
  · isplitl [H0l] <;> iassumption
  isplitl [H0]; · iexact H0
  isplitl [H4]; · iexact H4
  isplitl [H5]; · iexact H5
  isplitl [H6]; · iexact H6
  isplitl [H7]; · iexact H7
  iexact H8

/-- The buffers that bypass the region are as the region found them. -/
theorem rest_out (c : Dev nD) :
    (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (fun b => W1 m c (Proc.devRef .tc b)) := by
  unfold Pipeline.unscopedRest
  exact bigSep_congr fun b hb => by
    have hne : b ≠ main_v8 := fun e => (Finset.mem_sdiff.mp hb).2 (Finset.mem_image.mpr ⟨6, Finset.mem_univ _, e ▸ rfl⟩)
    beta_reduce
    rw [W1_of_ne m c b hne]

/-! ## The segments -/

def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    hostOps0_fresh (Vm m) R

def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    hostOps1_fresh (W1 m) R

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem := fun k : PEmpty => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c)]
    iintro ⟨⟨⟨Hab, Hur⟩, HO⟩, -, -⟩
    ihave Ha := (arrays_in m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    rw [show (dats m 0 c).Φ 0 = PhiS m c 0 (Nat.zero_le _) from rfl, PhiS_zero m c 0 _ rfl]
    iintro ⟨-, -, Hr⟩; iexact Hr
  hout c := by
    rw [Pipeline.ownSems0_none, show (dats m 0 c).Φ (Fin.last cfg0.N) = PhiS m c cfg0.N (le_refl _) from rfl,
      PhiS_pos m c _ _ (by have : cfg0.N = 64 := N_0; omega), scopedRest_scratch]
    iintro ⟨HS0, HS1⟩
    isplitr; · iempintro
    isplitr; · iempintro
    isplitl [HS0]; · iexists _; iexact HS0
    iexists _; iexact HS1
  hexit c := by
    rw [show StableHlo.held (c : Thread nD τ) (Pipeline.ucRefs τ sig) (W1 m c) = unscopedBufs c (fun b => W1 m c (Proc.devRef .tc b)) from (Pipeline.unscopedBufs_held c _).symm,
      Pipeline.unscopedBufs_split₀ cfgs 0 winFacts₀0.arr_unscoped c _]
    iintro ⟨Ha, HO, -, HZ⟩
    imodintro
    isplitr [HO]
    · isplitl [Ha]; · iapply (arrays_out m c); iexact Ha
      rw [← rest_out]; iexact HZ
    · unfold Pipeline.Dat.owesAt Pipeline.owesWithin
      icases HO with ⟨%W, -, HO⟩; iexists W; iexact HO

abbrev segs : List (Pipeline.Seg (pcfgs (F := F)) adm (dats m) () defs₀ 𝒱₀ L lv) := [.host (seg0 m), .region (reg0 m), .host (seg1 m)]

def u₀ : UR sig nD τ := initOf (Pipeline.cells cfgs cellOf_inj) (Pipeline.launchToks cfgs cellOf_inj)

/-- Every unscoped buffer ends at the value the last host operations leave. -/
def QC : PUnit × MemSt nD τ sig (Elt F) → Prop := fun r =>
  ∀ c : Dev nD, ∀ b ∈ Pipeline.ucRefs τ sig, r.2.mem ((c : Thread nD τ).1, b) = Wfin m c b

set_option backward.isDefEq.respectTransparency.types false in
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vm m c) ∗ R c))
    (Tₙ := fun c => StableHlo.held (c : Thread nD τ) (Pipeline.ucRefs τ sig) (Wfin m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vm m c) from Pipeline.unscopedBufs_held c (Vm m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Wfin m c b)
    (hfin := fun c s' => by
      unfold StableHlo.held
      iintro ⟨Hh, HSI⟩
      ihave Hr := (pointsTo_read_all (Pipeline.ucRefs τ sig) (fun b => ((c : Thread nD τ).1, b)) (Wfin m c) s') $$ [Hh HSI]
      · isplitl [Hh] <;> iassumption
      icases Hr with ⟨%ha, HSI⟩
      imodintro
      isplitr; · ipureintro; exact ha
      iexact HSI)
    (hQ := fun _ h => h)

/-! ## The frame -/

/-- A buffer none of the first nine host operations writes keeps its launch contents up to the region. -/
theorem not_written0 (b : Ref sig .tc) (hb : b ≠ main_v0 ∧ b ≠ main_v1 ∧ b ≠ main_v2 ∧ b ≠ main_cst ∧ b ≠ main_v3 ∧ b ≠ main_v4 ∧ b ≠ main_v5 ∧ b ≠ main_v6 ∧ b ≠ main_v7) :
    ∀ op ∈ (hostOps0 (F := F)), Proc.devRef .tc b ∉ op.writes := by
  obtain ⟨h0, h1, h2, h3, h4, h5, h6, h7, h8⟩ := hb
  intro op hop
  simp only [List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- Likewise for the last four. -/
theorem not_written1 (b : Ref sig .tc) (hb : b ≠ main_cst_0 ∧ b ≠ main_v9 ∧ b ≠ main_cst_1 ∧ b ≠ main_v10) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, StableHlo.reshape_writes, Finset.mem_singleton] <;>
    exact StableHlo.devRef_ne_of_ne ‹_›

/-- A buffer that no host operation writes and that is not the region's output ends as launched. -/
theorem Wfin_kept (c : Dev nD) (b : Ref sig .tc) (h0 : b ≠ main_v0 ∧ b ≠ main_v1 ∧ b ≠ main_v2 ∧ b ≠ main_cst ∧ b ≠ main_v3 ∧ b ≠ main_v4 ∧ b ≠ main_v5 ∧ b ≠ main_v6 ∧ b ≠ main_v7) (h1 : b ≠ main_cst_0 ∧ b ≠ main_v9 ∧ b ≠ main_cst_1 ∧ b ≠ main_v10) (h8 : b ≠ main_v8) :
    Wfin m c (Proc.devRef .tc b) = m ((c : Thread nD τ).loc b) :=
  (StableHlo.after_of_forall_not_mem (b := Proc.devRef .tc b) hostOps1 (W1 m c) (not_written1 b h1)).trans
    ((W1_of_ne m c b h8).trans (StableHlo.after_of_forall_not_mem (b := Proc.devRef .tc b) hostOps0 (Vm m c) (not_written0 b h0)))

/-- Every weakly fair execution of @main terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_arg0) (by decide)).trans (Wfin_kept m c main_arg0 (by decide) (by decide) (by decide)),
     (h c (Proc.devRef .tc main_arg1) (by decide)).trans (Wfin_kept m c main_arg1 (by decide) (by decide) (by decide))⟩)
    (run_main m ρ)

end Cert.Kernel.Hand

end
-- ==== Proof.KiRuns.lean ====
/-
  What the three runs of the mining kernel's body share. The grid is 8 row blocks by 8 column blocks, walked row block
  by row block; within a row block the column blocks come in order. At the first column block the body resets its two
  running extrema (a column of 1024 maxima seeded with minus infinity, a column of 1024 minima seeded with plus
  infinity); at every column block it folds that block's row maxima and row minima into them; at the last column block it
  also finishes the 1024 rows' losses into the output block. So a point is in one of three cases, by its position
  modulo 8: 0 (reset, fold), 1 to 6 (fold), 7 (fold, finish). The output block is written back only at the points of the
  last case and is left alone at the others.
-/
import proofs.«163923_j45037027066265_2_alg».proof.Proof.Gen.KernelIdeal.Launch
import proofs.«163923_j45037027066265_2_alg».proof.Proof.Gen.KernelIdeal.Skeleton
import proofs.«163923_j45037027066265_2_alg».proof.Proof.Gen.KernelIdeal.Points
import Idealize.ShloMosaic.Lib.Pipeline.FrameBody
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core c's buffers after the nine host operations before the region (the rounding of the embeddings, their
    squared norms, and the two layouts of the norms and of the labels). -/
abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Each input window's buffer holds its block at every point, fetched there or not -/

theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_in_3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_in_4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_in_5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The two branch conditions, decided over the grid -/

/-- "This is the first column block". -/
abbrev condFirst (i : grid0.Coords) : Prop := (Scalar.cmpi .ne (Scalar.extui (Scalar.cmpi .eq (BitVec.ofNat 32 (i 1).val) 0#32)) 0#32) = 1#1
theorem hcondFirst : ∀ t : Fin cfg0.N, condFirst (grid0.coords t) ↔ t.val % 8 = 0 :=
  (by decide +kernel : ∀ t : Fin grid0.N, condFirst (grid0.coords t) ↔ t.val % 8 = 0)
/-- "This is the last column block". -/
abbrev condLast (i : grid0.Coords) : Prop := k0_cond2 i = 1#1
theorem hcondLast : ∀ t : Fin cfg0.N, condLast (grid0.coords t) ↔ t.val % 8 = 7 :=
  (by decide +kernel : ∀ t : Fin grid0.N, condLast (grid0.coords t) ↔ t.val % 8 = 7)

/-! ## Where the output window is idle -/

theorem idle6_of_notLast : ∀ t : Fin cfg0.N, ¬condLast (grid0.coords t) → cfg0.idle 6 (grid0.coords t) = true := by decide +kernel
theorem noFlush6_of_notLast : ∀ t : Fin cfg0.N, ¬condLast (grid0.coords t) → (cfg0.win 6).flush t = false := by decide +kernel
theorem live6_of_last : ∀ t : Fin cfg0.N, condLast (grid0.coords t) → cfg0.idle 6 (grid0.coords t) = false := by decide +kernel

/-! ## The memrefs the body is called with -/

abbrev ms0 (t : Fin cfg0.N) : Memref sig .tc .vmem S1024x128 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .i32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .i32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)
/-- The two running extrema live in two scratch columns of the kernel's own. -/
abbrev scMax : Memref sig .tc .vmem S1024x1 .f32 := Memref.whole cc0_scratch0
abbrev scMin : Memref sig .tc .vmem S1024x1 .f32 := Memref.whole cc0_scratch1
abbrev VOut : View sig .tc .vmem S1024x1 .f32 := (Memref.whole cc0_stg6_0 : Memref sig .tc .vmem S1024x1 .f32).view
abbrev VMax : View sig .tc .vmem S1024x1 .f32 := scMax.view
abbrev VMin : View sig .tc .vmem S1024x1 .f32 := scMin.view

/-- The scoped buffers the pipeline does not stage are the two scratch columns. -/
theorem scopedRest_scratch (c : Dev nD) :
    (Pipeline.scopedRest (Ix := Unit) (Name := ℕ) (U := UR sig nD τ) (Lvl := ℕ) (Val := Elt F) spec0 c : sProp 𝕄)
      = iprop((∃ d, owns (c : Thread nD τ) scMax fullShare d) ∗ (∃ d, owns (c : Thread nD τ) scMin fullShare d)) := by
  rw [scopedRest0_eq]; simp only [scMax, scMin, owns_whole]; try rfl

end Cert.KernelIdeal.Hand

end
-- ==== Proof.KiRunA.lean ====
/-
  The body's run at the first column block of a row block (reset, then fold): on whole staging memrefs holding the six input blocks, the body runs to the
  continuation with the inputs as they were, the output block untouched, and the two running extrema with what the
  body stored into them; the stored pieces are found by running the body.
-/
import proofs.«163923_j45037027066265_2_alg».proof.Proof.KiRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i)
    (x0 : Vec F S1024x128 .bf16) (x1 : Vec F S1024x128 .bf16) (x2 : Vec F S1024x1 .f32) (x3 : Vec F S1x1024 .f32) (x4 : Vec F S1024x1 .i32) (x5 : Vec F S1x1024 .i32) :
    Σ' (L6 : List (View.Piece (Elt F) S1024x1 .f32)) (LS0 : List (View.Piece (Elt F) S1024x1 .f32)), { LS1 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__mine_kernel_eq_skeleton]; unfold cc0__mine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KiRunB.lean ====
/-
  The body's run at a middle column block (fold): on whole staging memrefs holding the six input blocks, the body runs to the
  continuation with the inputs as they were, the output block untouched, and the two running extrema with what the
  body stored into them; the stored pieces are found by running the body.
-/
import proofs.«163923_j45037027066265_2_alg».proof.Proof.KiRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i)
    (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (LS0 : List (View.Piece (Elt F) S1024x1 .f32)), { LS1 : List (View.Piece (Elt F) S1024x1 .f32) //
      ∀ (xi6 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10) K } := by
  refine ⟨[], ?_, ?_, fun xi6 E K => ?run⟩
  case run =>
    simp only [cc0__mine_kernel_eq_skeleton]; unfold cc0__mine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    iexists _; iexact HS1

end Cert.KernelIdeal.Hand

end
-- ==== Proof.KiRunC.lean ====
/-
  The body's run at the last column block of a row block (fold, then finish): on whole staging memrefs holding the six input blocks, the body runs to the
  continuation with the inputs as they were, the output block with the row losses stored, and the two running extrema with what the
  body stored into them; the stored pieces are found by running the body.
-/
import proofs.«163923_j45037027066265_2_alg».proof.Proof.KiRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRunC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i)
    (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    Σ' (L6 : List (View.Piece (Elt F) S1024x1 .f32)) (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__mine_kernel i arg2 harg2 arg3 harg3 arg4 harg4 arg5 harg5 arg6 harg6 arg7 harg7 arg8 harg8 arg9 harg9 arg10 harg10) K } := by
  refine ⟨?_, ?_, ?_, fun E K => ?run⟩
  case run =>
    simp only [cc0__mine_kernel_eq_skeleton]; unfold cc0__mine_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hfs0; obtain rfl := harg10.eq_unread hfs1
    sl_exec (disch := first | exact hcF | exact hcL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]; · iexists _; iexact HS0
    iexists _; iexact HS1

end Cert.KernelIdeal.Hand

end
-- ==== Proof.KiFrame.lean ====
/-
  The mining region's proof data and body obligation. After the body at point t the six input buffers hold their blocks;
  the running maxima and minima hold what the point's case stored, computed from the point's blocks and (outside the
  first column block) from what the previous point left; the output buffer holds the finished losses at the last column
  block and is untouched elsewhere. The recursion over points follows the three cases.
-/
import proofs.«163923_j45037027066265_2_alg».proof.Proof.KiRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What case A leaves in the running maxima, the running minima: its stored pieces read back. -/
def smaxA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) : Vec F S1024x1 .f32 :=
  VMax.read (Elt F) (VMax.writes (Elt F) VMax.junk (kernelRunA c i arg2 harg2 arg3 harg3 arg4 harg4 arg5 harg5 arg6 harg6 arg7 harg7 arg8 harg8 arg9 harg9 arg10 harg10 hcF hcL x0 x1 x2 x3 x4 x5).2.1)
def sminA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) : Vec F S1024x1 .f32 :=
  VMin.read (Elt F) (VMin.writes (Elt F) VMin.junk (kernelRunA c i arg2 harg2 arg3 harg3 arg4 harg4 arg5 harg5 arg6 harg6 arg7 harg7 arg8 harg8 arg9 harg9 arg10 harg10 hcF hcL x0 x1 x2 x3 x4 x5).2.2.1)
def outA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) : Vec F S1024x1 .f32 :=
  VOut.read (Elt F) (VOut.writes (Elt F) VOut.junk (kernelRunA c i arg2 harg2 arg3 harg3 arg4 harg4 arg5 harg5 arg6 harg6 arg7 harg7 arg8 harg8 arg9 harg9 arg10 harg10 hcF hcL x0 x1 x2 x3 x4 x5).1)
theorem coverMaxA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (y : S1024x1.Idx) : ∃ pc ∈ (kernelRunA c i arg2 harg2 arg3 harg3 arg4 harg4 arg5 harg5 arg6 harg6 arg7 harg7 arg8 harg8 arg9 harg9 arg10 harg10 hcF hcL x0 x1 x2 x3 x4 x5).2.1, y ∈ pc.1.set :=
  View.cover_of_tiledL (kernelRunA c i arg2 harg2 arg3 harg3 arg4 harg4 arg5 harg5 arg6 harg6 arg7 harg7 arg8 harg8 arg9 harg9 arg10 harg10 hcF hcL x0 x1 x2 x3 x4 x5).2.1 S1024x1.size (by sl_kernel_rfl) y
theorem coverMinA (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (y : S1024x1.Idx) : ∃ pc ∈ (kernelRunA c i arg2 harg2 arg3 harg3 arg4 harg4 arg5 harg5 arg6 harg6 arg7 harg7 arg8 harg8 arg9 harg9 arg10 harg10 hcF hcL x0 x1 x2 x3 x4 x5).2.2.1, y ∈ pc.1.set :=
  View.cover_of_tiledL (kernelRunA c i arg2 harg2 arg3 harg3 arg4 harg4 arg5 harg5 arg6 harg6 arg7 harg7 arg8 harg8 arg9 harg9 arg10 harg10 hcF hcL x0 x1 x2 x3 x4 x5).2.2.1 S1024x1.size (by sl_kernel_rfl) y

/-- What case B leaves in the running maxima, the running minima: its stored pieces read back. -/
def smaxB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VMax.read (Elt F) (VMax.writes (Elt F) VMax.junk (kernelRunB c i arg2 harg2 arg3 harg3 arg4 harg4 arg5 harg5 arg6 harg6 arg7 harg7 arg8 harg8 arg9 harg9 arg10 harg10 hcF hcL x0 x1 x2 x3 x4 x5 xs0 xs1).2.1)
def sminB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VMin.read (Elt F) (VMin.writes (Elt F) VMin.junk (kernelRunB c i arg2 harg2 arg3 harg3 arg4 harg4 arg5 harg5 arg6 harg6 arg7 harg7 arg8 harg8 arg9 harg9 arg10 harg10 hcF hcL x0 x1 x2 x3 x4 x5 xs0 xs1).2.2.1)
def outB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VOut.read (Elt F) (VOut.writes (Elt F) VOut.junk (kernelRunB c i arg2 harg2 arg3 harg3 arg4 harg4 arg5 harg5 arg6 harg6 arg7 harg7 arg8 harg8 arg9 harg9 arg10 harg10 hcF hcL x0 x1 x2 x3 x4 x5 xs0 xs1).1)
theorem coverMaxB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) : ∃ pc ∈ (kernelRunB c i arg2 harg2 arg3 harg3 arg4 harg4 arg5 harg5 arg6 harg6 arg7 harg7 arg8 harg8 arg9 harg9 arg10 harg10 hcF hcL x0 x1 x2 x3 x4 x5 xs0 xs1).2.1, y ∈ pc.1.set :=
  View.cover_of_tiledL (kernelRunB c i arg2 harg2 arg3 harg3 arg4 harg4 arg5 harg5 arg6 harg6 arg7 harg7 arg8 harg8 arg9 harg9 arg10 harg10 hcF hcL x0 x1 x2 x3 x4 x5 xs0 xs1).2.1 S1024x1.size (by sl_kernel_rfl) y
theorem coverMinB (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) : ∃ pc ∈ (kernelRunB c i arg2 harg2 arg3 harg3 arg4 harg4 arg5 harg5 arg6 harg6 arg7 harg7 arg8 harg8 arg9 harg9 arg10 harg10 hcF hcL x0 x1 x2 x3 x4 x5 xs0 xs1).2.2.1, y ∈ pc.1.set :=
  View.cover_of_tiledL (kernelRunB c i arg2 harg2 arg3 harg3 arg4 harg4 arg5 harg5 arg6 harg6 arg7 harg7 arg8 harg8 arg9 harg9 arg10 harg10 hcF hcL x0 x1 x2 x3 x4 x5 xs0 xs1).2.2.1 S1024x1.size (by sl_kernel_rfl) y

/-- What case C leaves in the running maxima, the running minima and the output block: its stored pieces read back. -/
def smaxC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VMax.read (Elt F) (VMax.writes (Elt F) VMax.junk (kernelRunC c i arg2 harg2 arg3 harg3 arg4 harg4 arg5 harg5 arg6 harg6 arg7 harg7 arg8 harg8 arg9 harg9 arg10 harg10 hcF hcL x0 x1 x2 x3 x4 x5 xs0 xs1).2.1)
def sminC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VMin.read (Elt F) (VMin.writes (Elt F) VMin.junk (kernelRunC c i arg2 harg2 arg3 harg3 arg4 harg4 arg5 harg5 arg6 harg6 arg7 harg7 arg8 harg8 arg9 harg9 arg10 harg10 hcF hcL x0 x1 x2 x3 x4 x5 xs0 xs1).2.2.1)
def outC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) : Vec F S1024x1 .f32 :=
  VOut.read (Elt F) (VOut.writes (Elt F) VOut.junk (kernelRunC c i arg2 harg2 arg3 harg3 arg4 harg4 arg5 harg5 arg6 harg6 arg7 harg7 arg8 harg8 arg9 harg9 arg10 harg10 hcF hcL x0 x1 x2 x3 x4 x5 xs0 xs1).1)
theorem coverMaxC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) : ∃ pc ∈ (kernelRunC c i arg2 harg2 arg3 harg3 arg4 harg4 arg5 harg5 arg6 harg6 arg7 harg7 arg8 harg8 arg9 harg9 arg10 harg10 hcF hcL x0 x1 x2 x3 x4 x5 xs0 xs1).2.1, y ∈ pc.1.set :=
  View.cover_of_tiledL (kernelRunC c i arg2 harg2 arg3 harg3 arg4 harg4 arg5 harg5 arg6 harg6 arg7 harg7 arg8 harg8 arg9 harg9 arg10 harg10 hcF hcL x0 x1 x2 x3 x4 x5 xs0 xs1).2.1 S1024x1.size (by sl_kernel_rfl) y
theorem coverMinC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) : ∃ pc ∈ (kernelRunC c i arg2 harg2 arg3 harg3 arg4 harg4 arg5 harg5 arg6 harg6 arg7 harg7 arg8 harg8 arg9 harg9 arg10 harg10 hcF hcL x0 x1 x2 x3 x4 x5 xs0 xs1).2.2.1, y ∈ pc.1.set :=
  View.cover_of_tiledL (kernelRunC c i arg2 harg2 arg3 harg3 arg4 harg4 arg5 harg5 arg6 harg6 arg7 harg7 arg8 harg8 arg9 harg9 arg10 harg10 hcF hcL x0 x1 x2 x3 x4 x5 xs0 xs1).2.2.1 S1024x1.size (by sl_kernel_rfl) y
theorem coverOutC (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) (y : S1024x1.Idx) : ∃ pc ∈ (kernelRunC c i arg2 harg2 arg3 harg3 arg4 harg4 arg5 harg5 arg6 harg6 arg7 harg7 arg8 harg8 arg9 harg9 arg10 harg10 hcF hcL x0 x1 x2 x3 x4 x5 xs0 xs1).1, y ∈ pc.1.set :=
  View.cover_of_tiledL (kernelRunC c i arg2 harg2 arg3 harg3 arg4 harg4 arg5 harg5 arg6 harg6 arg7 harg7 arg8 harg8 arg9 harg9 arg10 harg10 hcF hcL x0 x1 x2 x3 x4 x5 xs0 xs1).1 S1024x1.size (by sl_kernel_rfl) y

/-! ## What the output buffer and the two running extrema hold after each point -/

def outsAt (c : Dev nD) : (n : ℕ) → n < cfg0.N → Vec F S1024x1 .f32 × Vec F S1024x1 .f32 × Vec F S1024x1 .f32
  | 0, hn => (outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scMax (Memref.isWhole_whole _) scMin (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), smaxA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scMax (Memref.isWhole_whole _) scMin (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩), sminA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) scMax (Memref.isWhole_whole _) scMin (Memref.isWhole_whole _) ((hcondFirst ⟨0, hn⟩).mpr (Nat.zero_mod _)) (fun h => (fun h => by (try dsimp only at h); omega) ((hcondLast ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩))
  | n + 1, hn =>
    if h0 : (n + 1) % 8 = 0 then
      if h7 : (n + 1) % 8 = 7 then
        False.elim (by omega)
      else
        (outA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) ((hcondFirst ⟨n + 1, hn⟩).mpr h0) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), smaxA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) ((hcondFirst ⟨n + 1, hn⟩).mpr h0) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩), sminA c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) ((hcondFirst ⟨n + 1, hn⟩).mpr h0) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩))
    else
      if h7 : (n + 1) % 8 = 7 then
        (outC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) (fun h => h0 ((hcondFirst ⟨n + 1, hn⟩).mp h)) ((hcondLast ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, smaxC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) (fun h => h0 ((hcondFirst ⟨n + 1, hn⟩).mp h)) ((hcondLast ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, sminC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) (fun h => h0 ((hcondFirst ⟨n + 1, hn⟩).mp h)) ((hcondLast ⟨n + 1, hn⟩).mpr h7) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2)
      else
        (outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) (fun h => h0 ((hcondFirst ⟨n + 1, hn⟩).mp h)) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, smaxB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) (fun h => h0 ((hcondFirst ⟨n + 1, hn⟩).mp h)) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2, sminB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) scMax (Memref.isWhole_whole _) scMin (Memref.isWhole_whole _) (fun h => h0 ((hcondFirst ⟨n + 1, hn⟩).mp h)) (fun h => h7 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (outsAt c n (Nat.lt_of_succ_lt hn)).2.1 (outsAt c n (Nat.lt_of_succ_lt hn)).2.2)

theorem outsAt_A (c : Dev nD) (t : Fin cfg0.N) (h0 : t.val % 8 = 0) (h7 : ¬t.val % 8 = 7) :
    outsAt m c t.val t.isLt = (outA c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((hcondFirst t).mpr h0) (fun h => h7 ((hcondLast t).mp h)) (iblk m c 0 t) (iblk m c 1 t) (iblk m c 2 t) (iblk m c 3 t) (iblk m c 4 t) (iblk m c 5 t), smaxA c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((hcondFirst t).mpr h0) (fun h => h7 ((hcondLast t).mp h)) (iblk m c 0 t) (iblk m c 1 t) (iblk m c 2 t) (iblk m c 3 t) (iblk m c 4 t) (iblk m c 5 t), sminA c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((hcondFirst t).mpr h0) (fun h => h7 ((hcondLast t).mp h)) (iblk m c 0 t) (iblk m c 1 t) (iblk m c 2 t) (iblk m c 3 t) (iblk m c 4 t) (iblk m c 5 t)) := by
  obtain ⟨n, hn⟩ := t
  cases n with
  | zero => exact rfl
  | succ n => exact (dif_pos h0).trans ((dif_neg h7).trans rfl)

theorem outsAt_B (c : Dev nD) (t : Fin cfg0.N) (h0 : ¬t.val % 8 = 0) (h7 : ¬t.val % 8 = 7) :
    outsAt m c t.val t.isLt = (outB c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) (fun h => h7 ((hcondLast t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, smaxB c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) (fun h => h7 ((hcondLast t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, sminB c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) (fun h => h7 ((hcondLast t).mp h)) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h7).trans rfl)

theorem outsAt_C (c : Dev nD) (t : Fin cfg0.N) (h0 : ¬t.val % 8 = 0) (h7 : t.val % 8 = 7) :
    outsAt m c t.val t.isLt = (outC c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) ((hcondLast t).mpr h7) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, smaxC c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) ((hcondLast t).mpr h7) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2, sminC c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) ((hcondLast t).mpr h7) (iblk m c 0 t) (iblk m c 1 t) (iblk m c 2 t) (iblk m c 3 t) (iblk m c 4 t) (iblk m c 5 t) (outsAt m c (t.val - 1) (Nat.lt_of_le_of_lt (Nat.sub_le _ _) t.isLt)).2.1 (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h7).trans rfl)

/-- The invariant between points: before the first point the two scratch columns at anything; afterwards each at what
    the point before left in it. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scMax fullShare ((outsAt m c n hn).2.1) ∗ owns (c : Thread nD τ) scMin fullShare ((outsAt m c n hn).2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scMax fullShare ((outsAt m c n hn).2.1) ∗ owns (c : Thread nD τ) scMin fullShare ((outsAt m c n hn).2.2)) := rfl
theorem PhiS_pos (c : Dev nD) (n : ℕ) (h : n ≤ cfg0.N) (hz : n ≠ 0) :
    PhiS m c n h = iprop(owns (c : Thread nD τ) scMax fullShare ((outsAt m c (n - 1) (by omega)).2.1) ∗ owns (c : Thread nD τ) scMin fullShare ((outsAt m c (n - 1) (by omega)).2.2)) := by
  cases n with
  | zero => exact absurd rfl hz
  | succ n => rfl

/-! ## The proof data -/

/-- The embeddings' array is read by two windows (the row block and the column block): each holds half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (outsAt m c t.val t.isLt).1 := by dsimp only [dats]
theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d
theorem before_3 (c : Dev nD) (t : Fin cfg0.N) (d) : (dats m 0 c).before 3 t d = iblk m c 3 t :=
  before_in_3 m (dats m 0 c) (A_eq m c 3) (after_3 m c) t d
theorem before_4 (c : Dev nD) (t : Fin cfg0.N) (d) : (dats m 0 c).before 4 t d = iblk m c 4 t :=
  before_in_4 m (dats m 0 c) (A_eq m c 4) (after_4 m c) t d
theorem before_5 (c : Dev nD) (t : Fin cfg0.N) (d) : (dats m 0 c).before 5 t d = iblk m c 5 t :=
  before_in_5 m (dats m 0 c) (A_eq m c 5) (after_5 m c) t d
theorem live_in_0 : ∀ t : Fin cfg0.N, cfg0.idle 0 (grid0.coords t) = false := fun _ => rfl
theorem live_in_1 : ∀ t : Fin cfg0.N, cfg0.idle 1 (grid0.coords t) = false := fun _ => rfl
theorem live_in_2 : ∀ t : Fin cfg0.N, cfg0.idle 2 (grid0.coords t) = false := fun _ => rfl
theorem live_in_3 : ∀ t : Fin cfg0.N, cfg0.idle 3 (grid0.coords t) = false := fun _ => rfl
theorem live_in_4 : ∀ t : Fin cfg0.N, cfg0.idle 4 (grid0.coords t) = false := fun _ => rfl
theorem live_in_5 : ∀ t : Fin cfg0.N, cfg0.idle 5 (grid0.coords t) = false := fun _ => rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · by_cases h7 : t.val % 8 = 7
    · exfalso; omega
    · rw [show (dats m 0 c).leavesExact 0 t = owns (c : Thread nD τ) (ms0 t) fullShare ((dats m 0 c).after 0 t) from by
        unfold Dat.leavesExact; rw [live_in_0 t], after_0]
      rw [show (dats m 0 c).leavesExact 1 t = owns (c : Thread nD τ) (ms1 t) fullShare ((dats m 0 c).after 1 t) from by
        unfold Dat.leavesExact; rw [live_in_1 t], after_1]
      rw [show (dats m 0 c).leavesExact 2 t = owns (c : Thread nD τ) (ms2 t) fullShare ((dats m 0 c).after 2 t) from by
        unfold Dat.leavesExact; rw [live_in_2 t], after_2]
      rw [show (dats m 0 c).leavesExact 3 t = owns (c : Thread nD τ) (ms3 t) fullShare ((dats m 0 c).after 3 t) from by
        unfold Dat.leavesExact; rw [live_in_3 t], after_3]
      rw [show (dats m 0 c).leavesExact 4 t = owns (c : Thread nD τ) (ms4 t) fullShare ((dats m 0 c).after 4 t) from by
        unfold Dat.leavesExact; rw [live_in_4 t], after_4]
      rw [show (dats m 0 c).leavesExact 5 t = owns (c : Thread nD τ) (ms5 t) fullShare ((dats m 0 c).after 5 t) from by
        unfold Dat.leavesExact; rw [live_in_5 t], after_5]
      rw [Dat.leavesExact_idle (dats m 0 c) 6 t (idle6_of_notLast t (fun h => h7 ((hcondLast t).mp h))) (noFlush6_of_notLast t (fun h => h7 ((hcondLast t).mp h)))]
      rw [outsAt_A m c t h0 h7]
      unfold smaxA sminA; (try dsimp only)
      by_cases hz : t.val = 0
      · rw [PhiS_castSucc m c t, PhiS_zero m c _ _ hz, scopedRest_scratch]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((hcondFirst t).mpr h0) (fun h => h7 ((hcondLast t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1]
        · isplitl [HS0]
          · unfold owns; iexists _; isplitr
            swap; · iexact HS0
            ipureintro; exact View.read_writes_of_cover _ _ _ _ _ (coverMaxA c _ _ _ _ _ _ _ _ _ _ _ _ _ _ _ _ _ _ _ _ _ _ _ _ _ _ _)
          unfold owns; iexists _; isplitr
          swap; · iexact HS1
          ipureintro; exact View.read_writes_of_cover _ _ _ _ _ (coverMinA c _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRunA c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) ((hcondFirst t).mpr h0) (fun h => h7 ((hcondLast t).mp h)) (iblk m c 0 t) (iblk m c 1 t) (iblk m c 2 t) (iblk m c 3 t) (iblk m c 4 t) (iblk m c 5 t)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexists _; iexact HS0
        isplitl [HS1]; · iexists _; iexact HS1
        iintro ⟨H0, H1, H2, H3, H4, H5, H6, ⟨%es0, HS0⟩, ⟨%es1, HS1⟩⟩
        isplitl [HS0 HS1]
        · isplitl [HS0]
          · unfold owns; iexists _; isplitr
            swap; · iexact HS0
            ipureintro; exact View.read_writes_of_cover _ _ _ _ _ (coverMaxA c _ _ _ _ _ _ _ _ _ _ _ _ _ _ _ _ _ _ _ _ _ _ _ _ _ _ _)
          unfold owns; iexists _; isplitr
          swap; · iexact HS1
          ipureintro; exact View.read_writes_of_cover _ _ _ _ _ (coverMinA c _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6
  · have hz : t.val ≠ 0 := fun e => h0 (by rw [e])
    by_cases h7 : t.val % 8 = 7
    · rw [show (dats m 0 c).leavesExact 0 t = owns (c : Thread nD τ) (ms0 t) fullShare ((dats m 0 c).after 0 t) from by
        unfold Dat.leavesExact; rw [live_in_0 t], after_0]
      rw [show (dats m 0 c).leavesExact 1 t = owns (c : Thread nD τ) (ms1 t) fullShare ((dats m 0 c).after 1 t) from by
        unfold Dat.leavesExact; rw [live_in_1 t], after_1]
      rw [show (dats m 0 c).leavesExact 2 t = owns (c : Thread nD τ) (ms2 t) fullShare ((dats m 0 c).after 2 t) from by
        unfold Dat.leavesExact; rw [live_in_2 t], after_2]
      rw [show (dats m 0 c).leavesExact 3 t = owns (c : Thread nD τ) (ms3 t) fullShare ((dats m 0 c).after 3 t) from by
        unfold Dat.leavesExact; rw [live_in_3 t], after_3]
      rw [show (dats m 0 c).leavesExact 4 t = owns (c : Thread nD τ) (ms4 t) fullShare ((dats m 0 c).after 4 t) from by
        unfold Dat.leavesExact; rw [live_in_4 t], after_4]
      rw [show (dats m 0 c).leavesExact 5 t = owns (c : Thread nD τ) (ms5 t) fullShare ((dats m 0 c).after 5 t) from by
        unfold Dat.leavesExact; rw [live_in_5 t], after_5]
      rw [show (dats m 0 c).leavesExact 6 t = owns (c : Thread nD τ) (ms6 t) fullShare ((dats m 0 c).after 6 t) from by
        unfold Dat.leavesExact; rw [live6_of_last t ((hcondLast t).mpr h7)], after_6]
      rw [outsAt_C m c t h0 h7]
      unfold outC smaxC sminC; (try dsimp only)
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRunC c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) ((hcondLast t).mpr h7) (iblk m c 0 t) (iblk m c 1 t) (iblk m c 2 t) (iblk m c 3 t) (iblk m c 4 t) (iblk m c 5 t) _ _).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [HS0]; · iexact HS0
        isplitl [HS1]; · iexact HS1
        iintro ⟨H0, H1, H2, H3, H4, H5, ⟨%e6, H6⟩, ⟨%es0, HS0⟩, ⟨%es1, HS1⟩⟩
        isplitl [HS0 HS1]
        · isplitl [HS0]
          · unfold owns; iexists _; isplitr
            swap; · iexact HS0
            ipureintro; exact View.read_writes_of_cover _ _ _ _ _ (coverMaxC c _ _ _ _ _ _ _ _ _ _ _ _ _ _ _ _ _ _ _ _ _ _ _ _ _ _ _ _ _)
          unfold owns; iexists _; isplitr
          swap; · iexact HS1
          ipureintro; exact View.read_writes_of_cover _ _ _ _ _ (coverMinC c _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        unfold owns; iexists _; isplitr
        swap; · iexact H6
        ipureintro; exact View.read_writes_of_cover _ _ _ _ _ (coverOutC c _ _ _ _ _ _ _ _ _ _ _ _ _ _ _ _ _ _ _ _ _ _ _ _ _ _ _ _ _)
    · rw [show (dats m 0 c).leavesExact 0 t = owns (c : Thread nD τ) (ms0 t) fullShare ((dats m 0 c).after 0 t) from by
        unfold Dat.leavesExact; rw [live_in_0 t], after_0]
      rw [show (dats m 0 c).leavesExact 1 t = owns (c : Thread nD τ) (ms1 t) fullShare ((dats m 0 c).after 1 t) from by
        unfold Dat.leavesExact; rw [live_in_1 t], after_1]
      rw [show (dats m 0 c).leavesExact 2 t = owns (c : Thread nD τ) (ms2 t) fullShare ((dats m 0 c).after 2 t) from by
        unfold Dat.leavesExact; rw [live_in_2 t], after_2]
      rw [show (dats m 0 c).leavesExact 3 t = owns (c : Thread nD τ) (ms3 t) fullShare ((dats m 0 c).after 3 t) from by
        unfold Dat.leavesExact; rw [live_in_3 t], after_3]
      rw [show (dats m 0 c).leavesExact 4 t = owns (c : Thread nD τ) (ms4 t) fullShare ((dats m 0 c).after 4 t) from by
        unfold Dat.leavesExact; rw [live_in_4 t], after_4]
      rw [show (dats m 0 c).leavesExact 5 t = owns (c : Thread nD τ) (ms5 t) fullShare ((dats m 0 c).after 5 t) from by
        unfold Dat.leavesExact; rw [live_in_5 t], after_5]
      rw [Dat.leavesExact_idle (dats m 0 c) 6 t (idle6_of_notLast t (fun h => h7 ((hcondLast t).mp h))) (noFlush6_of_notLast t (fun h => h7 ((hcondLast t).mp h)))]
      rw [outsAt_B m c t h0 h7]
      unfold smaxB sminB; (try dsimp only)
      · rw [PhiS_castSucc m c t, PhiS_pos m c _ _ hz]
        iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
        iapply ((kernelRunB c (grid0.coords t) (ms0 t) (hs0 t) (ms1 t) (hs1 t) (ms2 t) (hs2 t) (ms3 t) (hs3 t) (ms4 t) (hs4 t) (ms5 t) (hs5 t) (ms6 t) (hs6 t) scMax (Memref.isWhole_whole _) scMin (Memref.isWhole_whole _) (fun h => h0 ((hcondFirst t).mp h)) (fun h => h7 ((hcondLast t).mp h)) (iblk m c 0 t) (iblk m c 1 t) (iblk m c 2 t) (iblk m c 3 t) (iblk m c 4 t) (iblk m c 5 t) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        isplitl [HS1]; · iexact HS1
        iintro ⟨H0, H1, H2, H3, H4, H5, H6, ⟨%es0, HS0⟩, ⟨%es1, HS1⟩⟩
        isplitl [HS0 HS1]
        · isplitl [HS0]
          · unfold owns; iexists _; isplitr
            swap; · iexact HS0
            ipureintro; exact View.read_writes_of_cover _ _ _ _ _ (coverMaxB c _ _ _ _ _ _ _ _ _ _ _ _ _ _ _ _ _ _ _ _ _ _ _ _ _ _ _ _ _)
          unfold owns; iexists _; isplitr
          swap; · iexact HS1
          ipureintro; exact View.read_writes_of_cover _ _ _ _ _ (coverMinB c _ _ _ _ _ _ _ _ _ _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        isplitl [H4]; · iexact H4
        isplitl [H5]; · iexact H5
        iexists _; iexact H6

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiLaunch.lean ====
/-
  The launch. @main is nine host operations, the mining region, and four more host operations (the mean). The region
  reads the rounded embeddings through TWO windows, a row block and a column block of the one array: at the region's
  entry that array is split into two half shares, one per window, and at its exit the halves, both still at the entry
  contents since neither window writes, are joined again. Every other unscoped buffer is either the array of exactly one
  window or bypasses the region. The run ends with every unscoped buffer at the value the last host operations leave,
  computed from the output array as the region's write-backs left it.
-/
import proofs.«163923_j45037027066265_2_alg».proof.Proof.KiFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev EP : Emb (UR sig nD τ) (MT nD τ sig Unit (Elt F) ℕ (UR sig nD τ) ℕ) := emb₁
abbrev 𝒱₀ : Variants := Variants.none
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev R (c : Dev nD) : sProp 𝕄 := iprop(∃ W, owes (c : Thread nD τ) (0 : CellTallies nD τ sig Unit) W)

/-- The launch memory as a valuation. -/
abbrev Vm (c : Dev nD) : Valuation τ sig (Elt F) := fun b => m (c, b)

/-- The output array after the region's write-backs. -/
def outFinal (c : Dev nD) : Buf (Elt F) ((c : Thread nD τ).loc main_v8) := (dats m 0 c).arrAt 6 cfg0.N

/-- The buffers as the region leaves them: the output array rewritten, everything else as the region found it. -/
def W1 (c : Dev nD) : Valuation τ sig (Elt F) := Function.update (V0 m c) (Proc.devRef .tc main_v8) (outFinal m c)
/-- And at the end of @main. -/
abbrev Wfin (c : Dev nD) : Valuation τ sig (Elt F) := StableHlo.after hostOps1 (W1 m c)

theorem W1_of_ne (c : Dev nD) (b : Ref sig .tc) (hb : b ≠ main_v8) : W1 m c (Proc.devRef .tc b) = V m c b :=
  Function.update_of_ne (StableHlo.devRef_ne_of_ne hb) _ _
theorem W1_self (c : Dev nD) : W1 m c (Proc.devRef .tc main_v8) = outFinal m c := Function.update_self _ _ _

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-! ## The windows' arrays, listed -/

theorem arrBufs_list (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v4) ↦{fullShare} W main_v4) ∗ (((c : Thread nD τ).loc main_v5) ↦{fullShare} W main_v5) ∗ (((c : Thread nD τ).loc main_v6) ↦{fullShare} W main_v6) ∗ (((c : Thread nD τ).loc main_v7) ↦{fullShare} W main_v7) ∗ (((c : Thread nD τ).loc main_v8) ↦{fullShare} W main_v8)) := by
  unfold Pipeline.arrBufs
  exact bigSep_eq_bigSepL_of_eq [main_v0, main_v4, main_v5, main_v6, main_v7, main_v8] (by decide) (by decide) _

theorem arrays_list (c : Dev nD) (Fw : (w : Fin cfg0.W) → Buf (Elt F) ((cfg0.win w).arr.view.loc (c : Thread nD τ))) :
    ((dats m 0 c).arrays Fw : sProp 𝕄)
      = iprop((((c : Thread nD τ).loc main_v0) ↦{fullShare.left} Fw 0) ∗ (((c : Thread nD τ).loc main_v0) ↦{fullShare.right} Fw 1) ∗ (((c : Thread nD τ).loc main_v4) ↦{fullShare} Fw 2)
          ∗ (((c : Thread nD τ).loc main_v5) ↦{fullShare} Fw 3) ∗ (((c : Thread nD τ).loc main_v6) ↦{fullShare} Fw 4) ∗ (((c : Thread nD τ).loc main_v7) ↦{fullShare} Fw 5) ∗ (((c : Thread nD τ).loc main_v8) ↦{fullShare} Fw 6)) := by
  unfold Dat.arrays
  rw [bigSep_W0, (arr_whole0 0).set_eq_univ, (arr_whole0 2).set_eq_univ, (arr_whole0 3).set_eq_univ,
    (arr_whole0 4).set_eq_univ, (arr_whole0 5).set_eq_univ, (arr_whole0 6).set_eq_univ]
  rfl

/-- ENTRY: the distinct buffers behind the arrays make the pipeline's arrays, the shared one split in two. -/
theorem arrays_in (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_list, arrays_list]
  have e : ∀ w, (dats m 0 c).arrAt w 0 = V m c (Pipeline.arrRef spec0 w) := fun w => A_eq m c w
  simp only [e]
  iintro ⟨H0, H4, H5, H6, H7, H8⟩
  ihave H0 := (pointsTo_share (PosShare.mem_left_op_right fullShare)).1 $$ H0
  icases H0 with ⟨H0l, H0r⟩
  isplitl [H0l]; · iexact H0l
  isplitl [H0r]; · iexact H0r
  isplitl [H4]; · iexact H4
  isplitl [H5]; · iexact H5
  isplitl [H6]; · iexact H6
  isplitl [H7]; · iexact H7
  iexact H8

/-- EXIT: the arrays after the run make the distinct buffers behind them again, the two halves of the shared one,
    neither written, joined. -/
theorem arrays_out (c : Dev nD) :
    ((dats m 0 c).arrays ((dats m 0 c).arrAt · cfg0.N) : sProp 𝕄)
      ⊢ Pipeline.arrBufs (Ix := Unit) (Name := ℕ) (U := UR sig nD τ) (Lvl := ℕ) spec0 c (fun b => W1 m c (Proc.devRef .tc b)) := by
  rw [arrBufs_list, arrays_list]
  have e : ∀ w, (cfg0.win w).isOut = false → (dats m 0 c).arrAt w cfg0.N = V m c (Pipeline.arrRef spec0 w) :=
    fun w hw => ((dats m 0 c).arrAt_in w hw _).trans (A_eq m c w)
  rw [e 0 rfl, e 1 rfl, e 2 rfl, e 3 rfl, e 4 rfl, e 5 rfl]
  rw [W1_of_ne m c main_v0 (by decide), W1_of_ne m c main_v4 (by decide), W1_of_ne m c main_v5 (by decide), W1_of_ne m c main_v6 (by decide),
    W1_of_ne m c main_v7 (by decide), W1_self]
  iintro ⟨H0l, H0r, H4, H5, H6, H7, H8⟩
  ihave H0 := (pointsTo_share (PosShare.mem_left_op_right fullShare)).2 $$ [H0l H0r]
  · isplitl [H0l] <;> iassumption
  isplitl [H0]; · iexact H0
  isplitl [H4]; · iexact H4
  isplitl [H5]; · iexact H5
  isplitl [H6]; · iexact H6
  isplitl [H7]; · iexact H7
  iexact H8

/-- The buffers that bypass the region are as the region found them. -/
theorem rest_out (c : Dev nD) :
    (Pipeline.unscopedRest (Ix := Unit) (Name := ℕ) (U := UR sig nD τ) (Lvl := ℕ) spec0 c (V m c) : sProp 𝕄)
      = Pipeline.unscopedRest (Ix := Unit) (Name := ℕ) (U := UR sig nD τ) (Lvl := ℕ) spec0 c (fun b => W1 m c (Proc.devRef .tc b)) := by
  unfold Pipeline.unscopedRest
  exact bigSep_congr fun b hb => by
    have hne : b ≠ main_v8 := fun e => (Finset.mem_sdiff.mp hb).2 (Finset.mem_image.mpr ⟨6, Finset.mem_univ _, e ▸ rfl⟩)
    beta_reduce
    rw [W1_of_ne m c b hne]

/-! ## The segments -/

def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    hostOps0_fresh (Vm m) R

def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    hostOps1_fresh (W1 m) R

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem := fun k : PEmpty => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W1 m c) ∗ R c)
  X c := iprop(emp)
  Y c := iprop(emp)
  Z c := Pipeline.unscopedRest (Ix := Unit) (Name := ℕ) (U := UR sig nD τ) (Lvl := ℕ) spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c)]
    iintro ⟨⟨⟨Hab, Hur⟩, HO⟩, -, -⟩
    ihave Ha := (arrays_in m c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hur
  hin c := by
    rw [show (dats m 0 c).Φ 0 = PhiS m c 0 (Nat.zero_le _) from rfl, PhiS_zero m c 0 _ rfl]
    iintro ⟨-, -, Hr⟩; iexact Hr
  hout c := by
    rw [Pipeline.ownSems0_none, show (dats m 0 c).Φ (Fin.last cfg0.N) = PhiS m c cfg0.N (le_refl _) from rfl,
      PhiS_pos m c _ _ (by have : cfg0.N = 64 := N_0; omega), scopedRest_scratch]
    iintro ⟨HS0, HS1⟩
    isplitr; · iempintro
    isplitr; · iempintro
    isplitl [HS0]; · iexists _; iexact HS0
    iexists _; iexact HS1
  hexit c := by
    rw [show StableHlo.held (c : Thread nD τ) (Pipeline.ucRefs τ sig) (W1 m c) = unscopedBufs c (fun b => W1 m c (Proc.devRef .tc b)) from (Pipeline.unscopedBufs_held c _).symm,
      Pipeline.unscopedBufs_split₀ cfgs 0 winFacts₀0.arr_unscoped c _]
    iintro ⟨Ha, HO, -, HZ⟩
    imodintro
    isplitr [HO]
    · isplitl [Ha]; · iapply (arrays_out m c); iexact Ha
      rw [← rest_out]; iexact HZ
    · unfold Pipeline.Dat.owesAt Pipeline.owesWithin
      icases HO with ⟨%W, -, HO⟩; iexists W; iexact HO

abbrev segs : List (Pipeline.Seg (pcfgs (F := F)) adm (dats m) () defs₀ 𝒱₀ L lv) := [.host (seg0 m), .region (reg0 m), .host (seg1 m)]

def u₀ : UR sig nD τ := initOf (Pipeline.cells cfgs cellOf_inj) (Pipeline.launchToks cfgs cellOf_inj)

/-- Every unscoped buffer ends at the value the last host operations leave. -/
def QC : PUnit × MemSt nD τ sig (Elt F) → Prop := fun r =>
  ∀ c : Dev nD, ∀ b ∈ Pipeline.ucRefs τ sig, r.2.mem ((c : Thread nD τ).1, b) = Wfin m c b

set_option backward.isDefEq.respectTransparency.types false in
theorem run_main : θ_run defs (onTc (τ := τ) (main (F := F))) (s₀ m ρ) (QC m) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp)) (u₀ := u₀)
    (hu₀ := by
      unfold u₀
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vm m c) ∗ R c))
    (Tₙ := fun c => StableHlo.held (c : Thread nD τ) (Pipeline.ucRefs τ sig) (Wfin m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Vm m c) from Pipeline.unscopedBufs_held c (Vm m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = Wfin m c b)
    (hfin := fun c s' => by
      unfold StableHlo.held
      iintro ⟨Hh, HSI⟩
      ihave Hr := (pointsTo_read_all (Pipeline.ucRefs τ sig) (fun b => ((c : Thread nD τ).1, b)) (Wfin m c) s') $$ [Hh HSI]
      · isplitl [Hh] <;> iassumption
      icases Hr with ⟨%ha, HSI⟩
      imodintro
      isplitr; · ipureintro; exact ha
      iexact HSI)
    (hQ := fun _ h => h)

/-! ## The frame -/

/-- A buffer none of the first nine host operations writes keeps its launch contents up to the region. -/
theorem not_written0 (b : Ref sig .tc) (hb : b ≠ main_v0 ∧ b ≠ main_v1 ∧ b ≠ main_v2 ∧ b ≠ main_cst ∧ b ≠ main_v3 ∧ b ≠ main_v4 ∧ b ≠ main_v5 ∧ b ≠ main_v6 ∧ b ≠ main_v7) :
    ∀ op ∈ (hostOps0 (F := F)), Proc.devRef .tc b ∉ op.writes := by
  obtain ⟨h0, h1, h2, h3, h4, h5, h6, h7, h8⟩ := hb
  intro op hop
  simp only [List.mem_cons, List.mem_nil_iff, or_false] at hop
  rcases hop with rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-- Likewise for the last four. -/
theorem not_written1 (b : Ref sig .tc) (hb : b ≠ main_cst_0 ∧ b ≠ main_v9 ∧ b ≠ main_cst_1 ∧ b ≠ main_v10) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, StableHlo.reshape_writes, Finset.mem_singleton] <;>
    exact StableHlo.devRef_ne_of_ne ‹_›

/-- A buffer that no host operation writes and that is not the region's output ends as launched. -/
theorem Wfin_kept (c : Dev nD) (b : Ref sig .tc) (h0 : b ≠ main_v0 ∧ b ≠ main_v1 ∧ b ≠ main_v2 ∧ b ≠ main_cst ∧ b ≠ main_v3 ∧ b ≠ main_v4 ∧ b ≠ main_v5 ∧ b ≠ main_v6 ∧ b ≠ main_v7) (h1 : b ≠ main_cst_0 ∧ b ≠ main_v9 ∧ b ≠ main_cst_1 ∧ b ≠ main_v10) (h8 : b ≠ main_v8) :
    Wfin m c (Proc.devRef .tc b) = m ((c : Thread nD τ).loc b) :=
  (StableHlo.after_of_forall_not_mem (b := Proc.devRef .tc b) hostOps1 (W1 m c) (not_written1 b h1)).trans
    ((W1_of_ne m c b h8).trans (StableHlo.after_of_forall_not_mem (b := Proc.devRef .tc b) hostOps0 (Vm m c) (not_written0 b h0)))

/-- Every weakly fair execution of @main terminates, nothing faulting, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_arg0) (by decide)).trans (Wfin_kept m c main_arg0 (by decide) (by decide) (by decide)),
     (h c (Proc.devRef .tc main_arg1) (by decide)).trans (Wfin_kept m c main_arg1 (by decide) (by decide) (by decide))⟩)
    (run_main m ρ)

end Cert.KernelIdeal.Hand

end
-- ==== Proof.Spec.lean ====
/-
  The mathematics of the claim, with no program in sight. For an array x of 8192 rows of 128 extended reals and
  8192 integer labels t, write s(i) = sum over d of x(i,d)^2 for a row's squared norm and p(i,j) = sum over d of
  x(i,d) * x(j,d) for the inner product of two rows. Two rows are "alike" when their labels agree; every row is alike
  to itself.

  The reference's loss: the distance of two rows is d(i,j) = sqrt (max eps ((s(i) + s(j)) - 2 * p(i,j))); a row's
  hardest alike distance is the supremum of d(i,j) over the rows j alike to i, its hardest unlike distance the infimum
  of d(i,j) over the rows j not alike to i (top when there is none); the row's loss is max ((hardest alike - hardest
  unlike) + margin) 0, and the loss is the mean over the 8192 rows.

  The kernel's loss: it mines on the shifted squared distances s(j) - 2 * p(i,j), which leave out the row's own
  s(i): the supremum over alike j and the infimum over unlike j of those, and only then adds s(i) back, clips at eps
  and takes the square root, once per row. The two agree when every entry of x is a real number: then s(i) moves
  freely across the sums, sqrt (max eps (. + s(i))) is monotone and sends top to top, so it passes through a supremum
  over a set that is never empty (row i itself is alike to i) and through any infimum.
-/
import Idealize.ShloMosaic.PureOps.Ideal
import Idealize.ShloMosaic.Lib.ValueIdx

noncomputable section

open scoped BigOperators

namespace Cert.Triplet

open Idealize.ShloMosaic Idealize.ShloMosaic.ValueIdx

/-- The embeddings' shape and the labels' shape. -/
abbrev SX : Shape := ⟨2, ![8192, 128]⟩
abbrev ST : Shape := ⟨1, ![8192]⟩

/-- The five float constants both programs spell, as the words they print: the clip floor, the margin, two, zero and
    the row count. The same word on both sides is never evaluated. -/
def eps : EReal := Ideal.ofBits .f32 0x2B8CBCCC#32
def margin : EReal := Ideal.ofBits .f32 0x3E99999A#32
def two : EReal := Ideal.ofBits .f32 0x40000000#32
def zero : EReal := Ideal.ofBits .f32 0x00000000#32
def count : EReal := Ideal.ofBits .f32 0x46000000#32

/-- A row's squared norm. -/
def sqn (x : SX.Idx → EReal) (i : Fin 8192) : EReal := ∑ d : Fin 128, x (ix2 i d) * x (ix2 i d)
/-- Two rows' inner product. -/
def gram (x : SX.Idx → EReal) (i j : Fin 8192) : EReal := ∑ d : Fin 128, x (ix2 i d) * x (ix2 j d)

/-! ## The reference's form -/

/-- The clipped distance of rows i and j. -/
def dist (x : SX.Idx → EReal) (i j : Fin 8192) : EReal :=
  Ideal.sqrt (max eps ((sqn x i + sqn x j) - two * gram x i j))
/-- The largest distance to a row with the same label (bottom outside them). -/
def hardPos (x : SX.Idx → EReal) (t : ST.Idx → BitVec 32) (i : Fin 8192) : EReal :=
  Finset.univ.sup fun j : Fin 8192 => if t (ix1 i) = t (ix1 j) then dist x i j else ⊥
/-- The smallest distance to a row with another label (top outside them). -/
def hardNeg (x : SX.Idx → EReal) (t : ST.Idx → BitVec 32) (i : Fin 8192) : EReal :=
  Finset.univ.inf fun j : Fin 8192 => if t (ix1 i) = t (ix1 j) then ⊤ else dist x i j
/-- One row's hinge. -/
def rowLoss (x : SX.Idx → EReal) (t : ST.Idx → BitVec 32) (i : Fin 8192) : EReal :=
  max ((hardPos x t i - hardNeg x t i) + margin) zero
/-- The mean of the rows' hinges. -/
def loss (x : SX.Idx → EReal) (t : ST.Idx → BitVec 32) : EReal :=
  Ideal.div (zero + ∑ i : Fin 8192, rowLoss x t i) count

/-! ## The kernel's form -/

/-- The squared distance less the row's own squared norm. -/
def shifted (x : SX.Idx → EReal) (i j : Fin 8192) : EReal := sqn x j - two * gram x i j
def kPos (x : SX.Idx → EReal) (t : ST.Idx → BitVec 32) (i : Fin 8192) : EReal :=
  Finset.univ.sup fun j : Fin 8192 => if t (ix1 i) = t (ix1 j) then shifted x i j else ⊥
def kNeg (x : SX.Idx → EReal) (t : ST.Idx → BitVec 32) (i : Fin 8192) : EReal :=
  Finset.univ.inf fun j : Fin 8192 => if t (ix1 i) = t (ix1 j) then ⊤ else shifted x i j
/-- One row's hinge as the kernel finishes it: the row's squared norm added back, the clip, the root. -/
def kRow (x : SX.Idx → EReal) (t : ST.Idx → BitVec 32) (i : Fin 8192) : EReal :=
  max ((Ideal.sqrt (max eps (kPos x t i + sqn x i)) - Ideal.sqrt (max eps (kNeg x t i + sqn x i))) + margin) zero
def kLoss (x : SX.Idx → EReal) (t : ST.Idx → BitVec 32) : EReal :=
  Ideal.div (zero + ∑ i : Fin 8192, kRow x t i) count

end Cert.Triplet

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.LibKeepdims.lean ====
/-
  Row sums kept as a column, read at an index given by coordinates.

  `jnp.sum(x, axis=1, keepdims=True)` of a matrix `[a, b]` is, in a kernel, a lane reduction `[a, b] → [a]`
  followed by a cast `[a] → [a, 1]`; adding such a column to an `[a, c]` matrix broadcasts it `[a, 1] → [a, c]`.
  Read at `(p, q)` the composite is the sum over the row `p`, whatever `q`: the three lemmas below are the three steps,
  each with its indices written by coordinates, and `rowSum_bcast_apply` / `rowSum_bcastRow_apply` are the two composites
  a pairwise-distance kernel uses (the row norms of the left operand down the columns, those of the right operand
  along the rows).
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A lane reduction by addition of an `[a, b]` matrix along its rows, at the ideal values and read at row `r`: the sum
    over the row. The accumulator's word is the neutral one, so it contributes nothing. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Row sums kept as a column and broadcast along the rows: at `(p, c)`, the sum over row `p`. -/
theorem rowSum_bcast_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, n]⟩)
    (p : Fin a) (c : Fin n) :
    broadcastTo ⟨2, ![a, n]⟩ (shapeCast ⟨2, ![a, 1]⟩ (multiReduction .add [1] ⟨1, ![a]⟩ src acc h hφ hacc) hc) hb (ix2 p c)
      = ∑ k : Fin b, src (ix2 p k) :=
  (broadcastTo_a1_ab_apply _ hb p c).trans
    ((shapeCast_a_a1_apply _ hc p 0).trans (multiReduction_add_rows_apply src acc h hφ hacc p))

/-- Row sums laid out as one row `[1, a]` and broadcast down the columns: at `(p, c)`, the sum over row `c` of the
    source. -/
theorem rowSum_bcastRow_apply {a b n : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![1, a]⟩) (hb : (⟨2, ![1, a]⟩ : Shape).Broadcasts ⟨2, ![n, a]⟩)
    (p : Fin n) (c : Fin a) :
    broadcastTo ⟨2, ![n, a]⟩ (shapeCast ⟨2, ![1, a]⟩ (multiReduction .add [1] ⟨1, ![a]⟩ src acc h hφ hacc) hc) hb (ix2 p c)
      = ∑ k : Fin b, src (ix2 c k) :=
  (broadcastTo_1b_ab_apply _ hb p c).trans
    ((shapeCast_a_1a_apply _ hc 0 c).trans (multiReduction_add_rows_apply src acc h hφ hacc c))

end Idealize.ShloMosaic.ValueIdx

end
-- ==== Proof.KiHost.lean ====
/-
  What the mining region finds in its arrays, at the ideal values, where the rounding of the embeddings is the identity:
  the rounded embeddings are the embeddings; the column and the row of squared norms hold, at row i, the sum over the
  128 coordinates of the square of the embedding's entry; the column and the row of labels hold the labels. And each
  window's block at a grid point is a slice of its array: the row windows at point t start at row 1024 * (t / 8), the
  column windows at column (or row of the transposed operand) 1024 * (t % 8).
-/
import proofs.«163923_j45037027066265_2_alg».proof.Proof.KiFrame
import proofs.«163923_j45037027066265_2_alg».proof.Proof.Spec
import Idealize.ShloMosaic.Lib.Pipeline.Value
import Idealize.ShloMosaic.Lib.ValueLayout
import Idealize.ShloMosaic.Lib.StableHlo.Run
import proofs.«163923_j45037027066265_2_alg».proof.Proof.LibHostKeepdims
import proofs.«163923_j45037027066265_2_alg».proof.Proof.LibKeepdims

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo Cert.Triplet

variable (m : (ℓ : Loc nD τ sig) → Buf (Elt Ideal) ℓ)

/-- The embeddings and the labels on core c. -/
abbrev xx (c : Dev nD) : S8192x128.Idx → EReal := m ((c : Thread nD τ).loc main_arg0)
abbrev tt (c : Dev nD) : S8192.Idx → BitVec 32 := m ((c : Thread nD τ).loc main_arg1)

/-! ## The host operations before the region, read at an index -/

theorem V_v0 (c : Dev nD) : (V m c main_v0 : S8192x128.Idx → EReal) = xx m c := by
  have e : @Eq (S8192x128.Idx → EReal) (V m c main_v0) (truncf (F := Ideal) .bf16 (xx m c) bitsLt_bf16_f32) := by
    dsimp only [V, V0, hostOps0]; after_results
  rw [e]; rfl

theorem norms_at (c : Dev nD) (i : Fin 8192) : (Host.reduceAdd (F := Ideal) (mulf (extf .f32 (truncf .bf16 (xx m c) bitsLt_bf16_f32) bitsLt_bf16_f32) (extf .f32 (truncf .bf16 (xx m c) bitsLt_bf16_f32) bitsLt_bf16_f32)) (constant (F := Ideal) S_ .f32 0x00000000#32) reducesTo_S8192x128_S8192_d1 h_S_) (ix1 i) = sqn (xx m c) i := by
  rw [hostReduceAdd_rows_apply _ _ _ (by decide) _ i]
  refine (congrArg (· + _) (show _ = (0 : EReal) from Ideal.ofBits_zero_f32)).trans ?_
  rw [zero_add]; rfl

theorem V_v4_at (c : Dev nD) (i : Fin 8192) : (V m c main_v4 : S8192x1.Idx → EReal) (ix2 i (0 : Fin 1)) = sqn (xx m c) i := by
  have e : (V m c main_v4 : S8192x1.Idx → EReal) = shapeCast S8192x1 (Host.reduceAdd (F := Ideal) (mulf (extf .f32 (truncf .bf16 (xx m c) bitsLt_bf16_f32) bitsLt_bf16_f32) (extf .f32 (truncf .bf16 (xx m c) bitsLt_bf16_f32) bitsLt_bf16_f32)) (constant (F := Ideal) S_ .f32 0x00000000#32) reducesTo_S8192x128_S8192_d1 h_S_) shapeCasts_S8192_S8192x1 := by
    dsimp only [V, V0, hostOps0]; after_results; rfl
  rw [e, shapeCast_a_a1_apply]; exact norms_at m c i

theorem V_v5_at (c : Dev nD) (j : Fin 8192) : (V m c main_v5 : S1x8192.Idx → EReal) (ix2 (0 : Fin 1) j) = sqn (xx m c) j := by
  have e : (V m c main_v5 : S1x8192.Idx → EReal) = shapeCast S1x8192 (Host.reduceAdd (F := Ideal) (mulf (extf .f32 (truncf .bf16 (xx m c) bitsLt_bf16_f32) bitsLt_bf16_f32) (extf .f32 (truncf .bf16 (xx m c) bitsLt_bf16_f32) bitsLt_bf16_f32)) (constant (F := Ideal) S_ .f32 0x00000000#32) reducesTo_S8192x128_S8192_d1 h_S_) shapeCasts_S8192_S1x8192 := by
    dsimp only [V, V0, hostOps0]; after_results; rfl
  rw [e, shapeCast_a_1a_apply]; exact norms_at m c j

theorem V_v6_at (c : Dev nD) (i : Fin 8192) : (V m c main_v6 : S8192x1.Idx → BitVec 32) (ix2 i (0 : Fin 1)) = tt m c (ix1 i) := by
  have e : (V m c main_v6 : S8192x1.Idx → BitVec 32) = shapeCast S8192x1 (tt m c) shapeCasts_S8192_S8192x1 := by
    dsimp only [V, V0, hostOps0]; after_results; rfl
  rw [e, shapeCast_a_a1_apply]

theorem V_v7_at (c : Dev nD) (j : Fin 8192) : (V m c main_v7 : S1x8192.Idx → BitVec 32) (ix2 (0 : Fin 1) j) = tt m c (ix1 j) := by
  have e : (V m c main_v7 : S1x8192.Idx → BitVec 32) = shapeCast S1x8192 (tt m c) shapeCasts_S8192_S1x8192 := by
    dsimp only [V, V0, hostOps0]; after_results; rfl
  rw [e, shapeCast_a_1a_apply]

/-! ## The grid: which block each window is on at each point -/

theorem idx_row : ∀ t : Fin cfg0.N, win0_0.index t (0 : Fin 2) = t.val / 8 ∧ win0_0.index t (1 : Fin 2) = 0
    ∧ win0_2.index t (0 : Fin 2) = t.val / 8 ∧ win0_2.index t (1 : Fin 2) = 0
    ∧ win0_4.index t (0 : Fin 2) = t.val / 8 ∧ win0_4.index t (1 : Fin 2) = 0
    ∧ win0_6.index t (0 : Fin 2) = t.val / 8 ∧ win0_6.index t (1 : Fin 2) = 0 :=
  (by decide +kernel : ∀ t : Fin grid0.N, _)

theorem idx_col : ∀ t : Fin cfg0.N, win0_1.index t (0 : Fin 2) = t.val % 8 ∧ win0_1.index t (1 : Fin 2) = 0
    ∧ win0_3.index t (0 : Fin 2) = 0 ∧ win0_3.index t (1 : Fin 2) = t.val % 8
    ∧ win0_5.index t (0 : Fin 2) = 0 ∧ win0_5.index t (1 : Fin 2) = t.val % 8 :=
  (by decide +kernel : ∀ t : Fin grid0.N, _)

/-- The row of the whole array that row r of point t's row block is, and likewise for columns. -/
def rowOf (n : ℕ) (hn : n < cfg0.N) (r : Fin 1024) : Fin 8192 := ⟨1024 * (n / 8) + r.val, by have : cfg0.N = 64 := N_0; have := r.isLt; omega⟩
def colOf (n : ℕ) (hn : n < cfg0.N) (j : Fin 1024) : Fin 8192 := ⟨1024 * (n % 8) + j.val, by have := j.isLt; omega⟩

/-! ## Each window's block as a slice of its array -/

theorem blk0_at (c : Dev nD) (t : Fin cfg0.N) (r : Fin 1024) (d : Fin 128) :
    (iblk m c 0 t : S1024x128.Idx → EReal) (ix2 r d) = xx m c (ix2 (rowOf t.val t.isLt r) d) := by
  rw [← V_v0]
  show V m c main_v0 (((cfg0.win 0).blk t).view.emb (ix2 r d)) = V m c main_v0 (ix2 (rowOf t.val t.isLt r) d)
  refine congrArg _ (funext fun a => Fin.ext ?_)
  obtain ⟨e0, e1, -⟩ := idx_row t
  match a with
  | ⟨0, _⟩ => show win0_0.index t (0 : Fin 2) * 1024 + 1 * r.val = 1024 * (t.val / 8) + r.val; omega
  | ⟨1, _⟩ => show win0_0.index t (1 : Fin 2) * 128 + 1 * d.val = d.val; omega

theorem blk1_at (c : Dev nD) (t : Fin cfg0.N) (j : Fin 1024) (d : Fin 128) :
    (iblk m c 1 t : S1024x128.Idx → EReal) (ix2 j d) = xx m c (ix2 (colOf t.val t.isLt j) d) := by
  rw [← V_v0]
  show V m c main_v0 (((cfg0.win 1).blk t).view.emb (ix2 j d)) = V m c main_v0 (ix2 (colOf t.val t.isLt j) d)
  refine congrArg _ (funext fun a => Fin.ext ?_)
  obtain ⟨e0, e1, -⟩ := idx_col t
  match a with
  | ⟨0, _⟩ => show win0_1.index t (0 : Fin 2) * 1024 + 1 * j.val = 1024 * (t.val % 8) + j.val; omega
  | ⟨1, _⟩ => show win0_1.index t (1 : Fin 2) * 128 + 1 * d.val = d.val; omega

theorem blk2_at (c : Dev nD) (t : Fin cfg0.N) (r : Fin 1024) :
    (iblk m c 2 t : S1024x1.Idx → EReal) (ix2 r (0 : Fin 1)) = sqn (xx m c) (rowOf t.val t.isLt r) := by
  rw [← V_v4_at]
  show V m c main_v4 (((cfg0.win 2).blk t).view.emb (ix2 r (0 : Fin 1))) = V m c main_v4 (ix2 (rowOf t.val t.isLt r) (0 : Fin 1))
  refine congrArg _ (funext fun a => Fin.ext ?_)
  obtain ⟨-, -, e0, e1, -⟩ := idx_row t
  match a with
  | ⟨0, _⟩ => show win0_2.index t (0 : Fin 2) * 1024 + 1 * r.val = 1024 * (t.val / 8) + r.val; omega
  | ⟨1, _⟩ => show win0_2.index t (1 : Fin 2) * 1 + 1 * 0 = 0; omega

theorem blk3_at (c : Dev nD) (t : Fin cfg0.N) (j : Fin 1024) :
    (iblk m c 3 t : S1x1024.Idx → EReal) (ix2 (0 : Fin 1) j) = sqn (xx m c) (colOf t.val t.isLt j) := by
  rw [← V_v5_at]
  show V m c main_v5 (((cfg0.win 3).blk t).view.emb (ix2 (0 : Fin 1) j)) = V m c main_v5 (ix2 (0 : Fin 1) (colOf t.val t.isLt j))
  refine congrArg _ (funext fun a => Fin.ext ?_)
  obtain ⟨-, -, e0, e1, -⟩ := idx_col t
  match a with
  | ⟨0, _⟩ => show win0_3.index t (0 : Fin 2) * 1 + 1 * 0 = 0; omega
  | ⟨1, _⟩ => show win0_3.index t (1 : Fin 2) * 1024 + 1 * j.val = 1024 * (t.val % 8) + j.val; omega

theorem blk4_at (c : Dev nD) (t : Fin cfg0.N) (r : Fin 1024) :
    (iblk m c 4 t : S1024x1.Idx → BitVec 32) (ix2 r (0 : Fin 1)) = tt m c (ix1 (rowOf t.val t.isLt r)) := by
  rw [← V_v6_at]
  show V m c main_v6 (((cfg0.win 4).blk t).view.emb (ix2 r (0 : Fin 1))) = V m c main_v6 (ix2 (rowOf t.val t.isLt r) (0 : Fin 1))
  refine congrArg _ (funext fun a => Fin.ext ?_)
  obtain ⟨-, -, -, -, e0, e1, -⟩ := idx_row t
  match a with
  | ⟨0, _⟩ => show win0_4.index t (0 : Fin 2) * 1024 + 1 * r.val = 1024 * (t.val / 8) + r.val; omega
  | ⟨1, _⟩ => show win0_4.index t (1 : Fin 2) * 1 + 1 * 0 = 0; omega

theorem blk5_at (c : Dev nD) (t : Fin cfg0.N) (j : Fin 1024) :
    (iblk m c 5 t : S1x1024.Idx → BitVec 32) (ix2 (0 : Fin 1) j) = tt m c (ix1 (colOf t.val t.isLt j)) := by
  rw [← V_v7_at]
  show V m c main_v7 (((cfg0.win 5).blk t).view.emb (ix2 (0 : Fin 1) j)) = V m c main_v7 (ix2 (0 : Fin 1) (colOf t.val t.isLt j))
  refine congrArg _ (funext fun a => Fin.ext ?_)
  obtain ⟨-, -, -, -, e0, e1⟩ := idx_col t
  match a with
  | ⟨0, _⟩ => show win0_5.index t (0 : Fin 2) * 1 + 1 * 0 = 0; omega
  | ⟨1, _⟩ => show win0_5.index t (1 : Fin 2) * 1024 + 1 * j.val = 1024 * (t.val % 8) + j.val; omega

end Cert.KernelIdeal.Hand

end
-- ==== Proof.KiPieces.lean ====
/-
  What each case's stored pieces read back as, in the body's own arithmetic: the running maxima become the fold of the
  block's row maxima into what they held (the seed, minus infinity, at the first column block); the running minima
  likewise with the row minima (seed plus infinity); and at the last column block the output block is the finished
  loss of the two folded extrema and the rows' squared norms.
-/
import proofs.«163923_j45037027066265_2_alg».proof.Proof.KiFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem smaxA_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) :
    smaxA c i arg2 harg2 arg3 harg3 arg4 harg4 arg5 harg5 arg6 harg6 arg7 harg7 arg8 harg8 arg9 harg9 arg10 harg10 hcF hcL x0 x1 x2 x3 x4 x5 = k0_pay8 x0 x1 x3 x4 x5 k0_pay3 := by
  unfold smaxA
  rw [View.read_writes_eq_canon _ _ _ (coverMaxA c i arg2 harg2 arg3 harg3 arg4 harg4 arg5 harg5 arg6 harg6 arg7 harg7 arg8 harg8 arg9 harg9 arg10 harg10 hcF hcL x0 x1 x2 x3 x4 x5)]
  unfold kernelRunA
  dsimp only
  have hz : (![0, 0] : Fin 2 → Nat) = fun _ => 0 := by funext a; match a with | ⟨0, _⟩ => rfl | ⟨1, _⟩ => rfl
  sl_unfold_run_names
  rw [View.canon_cons_unit_zero hz]
  sl_unfold_run_names
  simp only [View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x1) hz, View.ld_unit_zero (S := S1024x128) hz, View.ld_unit_zero (S := S1x1024) hz]

theorem sminA_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) :
    sminA c i arg2 harg2 arg3 harg3 arg4 harg4 arg5 harg5 arg6 harg6 arg7 harg7 arg8 harg8 arg9 harg9 arg10 harg10 hcF hcL x0 x1 x2 x3 x4 x5 = k0_pay1 (k0_pay7 x0 x1 x3 x4 x5) k0_pay4 := by
  unfold sminA
  rw [View.read_writes_eq_canon _ _ _ (coverMinA c i arg2 harg2 arg3 harg3 arg4 harg4 arg5 harg5 arg6 harg6 arg7 harg7 arg8 harg8 arg9 harg9 arg10 harg10 hcF hcL x0 x1 x2 x3 x4 x5)]
  unfold kernelRunA
  dsimp only
  have hz : (![0, 0] : Fin 2 → Nat) = fun _ => 0 := by funext a; match a with | ⟨0, _⟩ => rfl | ⟨1, _⟩ => rfl
  sl_unfold_run_names
  rw [View.canon_cons_unit_zero hz]
  sl_unfold_run_names
  simp only [View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x1) hz, View.ld_unit_zero (S := S1024x128) hz, View.ld_unit_zero (S := S1x1024) hz]

theorem smaxB_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    smaxB c i arg2 harg2 arg3 harg3 arg4 harg4 arg5 harg5 arg6 harg6 arg7 harg7 arg8 harg8 arg9 harg9 arg10 harg10 hcF hcL x0 x1 x2 x3 x4 x5 xs0 xs1 = k0_pay8 x0 x1 x3 x4 x5 xs0 := by
  unfold smaxB
  rw [View.read_writes_eq_canon _ _ _ (coverMaxB c i arg2 harg2 arg3 harg3 arg4 harg4 arg5 harg5 arg6 harg6 arg7 harg7 arg8 harg8 arg9 harg9 arg10 harg10 hcF hcL x0 x1 x2 x3 x4 x5 xs0 xs1)]
  unfold kernelRunB
  dsimp only
  have hz : (![0, 0] : Fin 2 → Nat) = fun _ => 0 := by funext a; match a with | ⟨0, _⟩ => rfl | ⟨1, _⟩ => rfl
  sl_unfold_run_names
  rw [View.canon_unit_zero hz]
  sl_unfold_run_names
  simp only [View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x1) hz, View.ld_unit_zero (S := S1024x128) hz, View.ld_unit_zero (S := S1x1024) hz]

theorem sminB_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : ¬condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    sminB c i arg2 harg2 arg3 harg3 arg4 harg4 arg5 harg5 arg6 harg6 arg7 harg7 arg8 harg8 arg9 harg9 arg10 harg10 hcF hcL x0 x1 x2 x3 x4 x5 xs0 xs1 = k0_pay1 (k0_pay7 x0 x1 x3 x4 x5) xs1 := by
  unfold sminB
  rw [View.read_writes_eq_canon _ _ _ (coverMinB c i arg2 harg2 arg3 harg3 arg4 harg4 arg5 harg5 arg6 harg6 arg7 harg7 arg8 harg8 arg9 harg9 arg10 harg10 hcF hcL x0 x1 x2 x3 x4 x5 xs0 xs1)]
  unfold kernelRunB
  dsimp only
  have hz : (![0, 0] : Fin 2 → Nat) = fun _ => 0 := by funext a; match a with | ⟨0, _⟩ => rfl | ⟨1, _⟩ => rfl
  sl_unfold_run_names
  rw [View.canon_unit_zero hz]
  sl_unfold_run_names
  simp only [View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x1) hz, View.ld_unit_zero (S := S1024x128) hz, View.ld_unit_zero (S := S1x1024) hz]

theorem smaxC_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    smaxC c i arg2 harg2 arg3 harg3 arg4 harg4 arg5 harg5 arg6 harg6 arg7 harg7 arg8 harg8 arg9 harg9 arg10 harg10 hcF hcL x0 x1 x2 x3 x4 x5 xs0 xs1 = k0_pay8 x0 x1 x3 x4 x5 xs0 := by
  unfold smaxC
  rw [View.read_writes_eq_canon _ _ _ (coverMaxC c i arg2 harg2 arg3 harg3 arg4 harg4 arg5 harg5 arg6 harg6 arg7 harg7 arg8 harg8 arg9 harg9 arg10 harg10 hcF hcL x0 x1 x2 x3 x4 x5 xs0 xs1)]
  unfold kernelRunC
  dsimp only
  have hz : (![0, 0] : Fin 2 → Nat) = fun _ => 0 := by funext a; match a with | ⟨0, _⟩ => rfl | ⟨1, _⟩ => rfl
  sl_unfold_run_names
  rw [View.canon_unit_zero hz]
  sl_unfold_run_names
  simp only [View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x1) hz, View.ld_unit_zero (S := S1024x128) hz, View.ld_unit_zero (S := S1x1024) hz]

theorem sminC_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    sminC c i arg2 harg2 arg3 harg3 arg4 harg4 arg5 harg5 arg6 harg6 arg7 harg7 arg8 harg8 arg9 harg9 arg10 harg10 hcF hcL x0 x1 x2 x3 x4 x5 xs0 xs1 = k0_pay1 (k0_pay7 x0 x1 x3 x4 x5) xs1 := by
  unfold sminC
  rw [View.read_writes_eq_canon _ _ _ (coverMinC c i arg2 harg2 arg3 harg3 arg4 harg4 arg5 harg5 arg6 harg6 arg7 harg7 arg8 harg8 arg9 harg9 arg10 harg10 hcF hcL x0 x1 x2 x3 x4 x5 xs0 xs1)]
  unfold kernelRunC
  dsimp only
  have hz : (![0, 0] : Fin 2 → Nat) = fun _ => 0 := by funext a; match a with | ⟨0, _⟩ => rfl | ⟨1, _⟩ => rfl
  sl_unfold_run_names
  rw [View.canon_unit_zero hz]
  sl_unfold_run_names
  simp only [View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x1) hz, View.ld_unit_zero (S := S1024x128) hz, View.ld_unit_zero (S := S1x1024) hz]

theorem outC_eq (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .i32) (harg6 : arg6.IsWhole) (arg7 : Memref sig .tc .vmem S1x1024 .i32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (hcF : ¬condFirst i) (hcL : condLast i) (x0 : Vec F S1024x128 .bf16) (x1 : Vec F S1024x128 .bf16) (x2 : Vec F S1024x1 .f32) (x3 : Vec F S1x1024 .f32) (x4 : Vec F S1024x1 .i32) (x5 : Vec F S1x1024 .i32) (xs0 : Vec F S1024x1 .f32) (xs1 : Vec F S1024x1 .f32) :
    outC c i arg2 harg2 arg3 harg3 arg4 harg4 arg5 harg5 arg6 harg6 arg7 harg7 arg8 harg8 arg9 harg9 arg10 harg10 hcF hcL x0 x1 x2 x3 x4 x5 xs0 xs1 = k0_pay2 x2 (k0_pay8 x0 x1 x3 x4 x5 xs0) (k0_pay1 (k0_pay7 x0 x1 x3 x4 x5) xs1) := by
  unfold outC
  rw [View.read_writes_eq_canon _ _ _ (coverOutC c i arg2 harg2 arg3 harg3 arg4 harg4 arg5 harg5 arg6 harg6 arg7 harg7 arg8 harg8 arg9 harg9 arg10 harg10 hcF hcL x0 x1 x2 x3 x4 x5 xs0 xs1)]
  unfold kernelRunC
  dsimp only
  have hz : (![0, 0] : Fin 2 → Nat) = fun _ => 0 := by funext a; match a with | ⟨0, _⟩ => rfl | ⟨1, _⟩ => rfl
  sl_unfold_run_names
  rw [View.canon_unit_zero hz]
  sl_unfold_run_names
  simp only [View.readCov_unit_zero (S := S1024x1) _ hz, View.readAt_eq_ld, harg2.read_unread, harg3.read_unread, harg4.read_unread, harg5.read_unread, harg6.read_unread, harg7.read_unread, harg9.read_unread, harg10.read_unread, View.ld_unit_zero (S := S1024x1) hz, View.ld_unit_zero (S := S1024x128) hz, View.ld_unit_zero (S := S1x1024) hz]

end Cert.KernelIdeal.Hand

end
-- ==== Proof.LibRowMax.lean ====
/-
  A kernel's row maxima, read at an index given by coordinates.

  `jnp.max(x, axis=1)` of a matrix `[a, b]` is, in a kernel, a lane reduction `[a, b] → [a]` by `maximumf` from an
  accumulator word. On the extended reals `max` is commutative and associative, so the order of the reduction does not
  matter: read at row `r` the result is the fold of `max`, from the value the accumulator's word denotes, over the entries
  `x (r, k)`, `k` running over the row.
-/
import Idealize.ShloMosaic.Lib.ValueIdx
import Idealize.ShloMosaic.PureOps.Ideal.Laws

noncomputable section

namespace Cert.LibRowMax

open Idealize.ShloMosaic Idealize.ShloMosaic.ValueIdx

/-- A lane reduction by `maximumf` of an `[a, b]` matrix along its rows, at the ideal values and read at row `r`: the
    fold of `max` from the accumulator's value over the row. -/
theorem multiReduction_max_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Cert.LibRowMax

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibRowMin.lean ====
/-
  A kernel's row minima, and the lattice reading of a row reduction, at an index given by coordinates.

  `jnp.min(x, axis=1)` of a matrix `[a, b]` is, in a kernel, a lane reduction `[a, b] → [a]` by `minimumf` from an
  accumulator word. On the extended reals `min` is commutative and associative, so the order of the reduction does not
  matter: read at row `r` the result is the fold of `min`, from the value the accumulator's word denotes, over the entries
  `x (r, k)`, `k` running over the row. When that word is the one of +∞ the accumulator's value is the top element and the
  fold over the whole row is the infimum of the row; dually a fold of `max` from the word of −∞, the bottom element, is
  the supremum — the form a masked maximum or minimum (`jnp.where(mask, x, ∓inf)` reduced along the row) is compared in.
  Last, a matrix transposed by the permutation `[1, 0]` reads, at `(d, j)`, the operand at `(j, d)`: the right operand of
  `x @ y.T`.
-/
import Idealize.ShloMosaic.Lib.ValueIdx
import Idealize.ShloMosaic.Lib.Pipeline.Value
import Idealize.ShloMosaic.PureOps.Ideal.Laws

noncomputable section

namespace Cert.LibRowMin

open Idealize.ShloMosaic Idealize.ShloMosaic.ValueIdx

/-! ## The two infinities' words, and folds over a whole row as lattice operations -/

/-- The f32 word of minus infinity denotes the bottom element of the extended reals. -/
theorem ofBits_neg_inf : Ideal.ofBits .f32 0xFF800000#32 = ⊥ := by simp [Ideal.ofBits, Ideal.ieee]
/-- The f32 word of plus infinity denotes the top element of the extended reals. -/
theorem ofBits_pos_inf : Ideal.ofBits .f32 0x7F800000#32 = ⊤ := by simp [Ideal.ofBits, Ideal.ieee]

/-- A fold of max from bottom over all of `Fin n` is the supremum. -/
theorem fold_max_bot {n : ℕ} (f : Fin n → EReal) : (Finset.univ : Finset (Fin n)).fold max ⊥ f = Finset.univ.sup f := rfl
/-- A fold of min from top over all of `Fin n` is the infimum. -/
theorem fold_min_top {n : ℕ} (f : Fin n → EReal) : (Finset.univ : Finset (Fin n)).fold min ⊤ f = Finset.univ.inf f := rfl

/-! ## A minimum along one axis -/

/-- A lane reduction by minimumf over one axis, at the ideal values: min commutes and associates on the extended reals,
    so the result at an index is the fold of min, from the accumulator's value, over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A lane reduction by `minimumf` of an `[a, b]` matrix along its rows, at the ideal values and read at row `r`: the
    fold of `min` from the accumulator's value over the row. -/
theorem multiReduction_min_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (r : Fin a) :
    multiReduction .minimumf [1] ⟨1, ![a]⟩ src acc h hφ hacc (ix1 r)
      = (Finset.univ : Finset (Fin b)).fold min (Ideal.ofBits φ acc) (fun k => src (ix2 r k)) := by
  refine (multiReduction_minimumf_single src acc h hφ hacc (ix1 r)).trans ?_
  refine congrArg (Finset.fold _ _ · _) (funext fun k => congrArg src (funext fun ax => Fin.ext ?_))
  match ax with
  | ⟨0, _⟩ => rfl
  | ⟨1, _⟩ => rfl

/-! ## A transposed matrix -/

/-- An `[a, b]` matrix transposed to `[b, a]` reads, at `(d, j)`, the operand at `(j, d)`. -/
theorem transpose_ab_ba_apply {a b : ℕ} {α : Type} (x : (⟨2, ![a, b]⟩ : Shape).Idx → α)
    (h : (⟨2, ![a, b]⟩ : Shape).Transposes [1, 0] ⟨2, ![b, a]⟩) (d : Fin b) (j : Fin a) :
    transpose ⟨2, ![b, a]⟩ [1, 0] x h (ix2 d j) = x (ix2 j d) :=
  transpose_apply [1, 0] x h (ix2 d j) (ix2 j d) fun ax => by
    match ax with
    | ⟨0, _⟩ => rfl
    | ⟨1, _⟩ => rfl

end Cert.LibRowMin

end
-- ==== Proof.TileValue.lean ====
/-
  One tile of the batch-hard mining, read entry by entry over the extended reals.

  A grid point holds a block of 1024 "row" embeddings x0, a block of 1024 "column" embeddings x1 (each row of 128
  entries), the column block's squared norms x3 laid out as one row, and the two blocks' labels x4 (a column) and x5 (a
  row). Every float operation is exact here and a change of format is the identity, so each value the kernel's body
  stores is plain arithmetic on those entries:

    • the shifted squared distance of row r and column j is  x3(j) − two · Σ_d x0(r, d) · x1(j, d):  the product of the row
      block with the TRANSPOSED column block, into a zero accumulator, scaled and subtracted from the norms' row broadcast
      down the rows (`pay5_at`);
    • the mask bit at (r, j) is set exactly when the two labels agree (`pay6_at`);
    • the tile's hardest-alike value of row r is the supremum over the columns alike to r of those distances (bottom
      elsewhere: the row maximum from the word of −∞), taken against the value carried from the earlier tiles
      (`pay8_at`); the tile's hardest-unlike value is the infimum over the columns not alike to r (top elsewhere: the
      row minimum from the word of +∞) (`pay7_at`), and the carried one is lowered to it (`pay1_at`);
    • the first tile starts the two accumulators at bottom and top (`pay3_at`, `pay4_at`);
    • the last tile finishes a row: its own squared norm x2 added back to both mined values, the clip at eps, the square
      root, the difference plus the margin, clamped at zero (`pay2_at`).

  max and min commute and associate on the extended reals, so a row reduction is a fold in any order, and a fold of max
  from bottom (of min from top) over all the columns is the lattice supremum (infimum) over `Fin 1024`.
-/
import proofs.«163923_j45037027066265_2_alg».proof.Proof.Gen.KernelIdeal.Skeleton
import proofs.«163923_j45037027066265_2_alg».proof.Proof.Spec
import Idealize.ShloMosaic.Lib.ValueIdx
import Idealize.ShloMosaic.Lib.Pipeline.Value
import Idealize.ShloMosaic.Lib.ValueLayout
import Idealize.ShloMosaic.PureOps.Ideal.Laws
import proofs.«163923_j45037027066265_2_alg».proof.Proof.LibRowMax
import proofs.«163923_j45037027066265_2_alg».proof.Proof.LibMatmulNN
import proofs.«163923_j45037027066265_2_alg».proof.Proof.LibKeepdims
import proofs.«163923_j45037027066265_2_alg».proof.Proof.LibRowMin

noncomputable section

open scoped BigOperators

namespace Cert.TileValue

open Cert.KernelIdeal Cert.KernelIdeal.Gen Idealize.ShloMosaic Idealize.ShloMosaic.ValueIdx Cert.Triplet
open Cert.LibRowMin

/-! ## The payloads at an index -/

/-- The shifted squared distances of a tile: the column norms' row, broadcast down the rows, less twice the Gram entry. -/
theorem pay5_at (x0 x1 : Vec Ideal S1024x128 .bf16) (x3 : Vec Ideal S1x1024 .f32) (r j : Fin 1024) :
    k0_pay5 (F := Ideal) x0 x1 x3 (ix2 r j)
      = x3 (ix2 (0 : Fin 1) j) - two * ∑ d : Fin 128, x0 (ix2 r d) * x1 (ix2 j d) := by
  unfold k0_pay5
  rw [shapeCast_self, shapeCast_self, shapeCast_self]
  rw [subf_apply, mulf_apply, broadcast_apply, broadcastTo_1b_ab_apply]
  rw [Cert.LibMatmulNN.matmul_nn_apply _ rfl rfl rfl rfl rfl rfl]
  refine congrArg (fun s => x3 (ix2 (0 : Fin 1) j) - two * s) (Finset.sum_congr rfl fun d _ => ?_)
  exact congrArg (x0 (ix2 r d) * ·) (transpose_ab_ba_apply x1 transposes_S1024x128_p1_0_S128x1024 d j)

/-- The tile's mask: the row label against the column label. -/
theorem pay6_at (x4 : Vec Ideal S1024x1 .i32) (x5 : Vec Ideal S1x1024 .i32) (r j : Fin 1024) :
    k0_pay6 (F := Ideal) x4 x5 (ix2 r j) = 1#1 ↔ x4 (ix2 r (0 : Fin 1)) = x5 (ix2 (0 : Fin 1) j) := by
  unfold k0_pay6
  rw [shapeCast_self, shapeCast_self]
  show IntOp.cmpi .eq (broadcastTo S1024x1024 x4 broadcasts_S1024x1_S1024x1024 (ix2 r j))
      (broadcastTo S1024x1024 x5 broadcasts_S1x1024_S1024x1024 (ix2 r j)) = 1#1 ↔ _
  rw [broadcastTo_a1_ab_apply, broadcastTo_1b_ab_apply]
  exact IntOp.cmpi_eq

/-- The running hardest-alike value after a tile: the carried value against the supremum, over the tile's columns alike to
    the row, of the shifted squared distances. -/
theorem pay8_at (x0 x1 : Vec Ideal S1024x128 .bf16) (x3 : Vec Ideal S1x1024 .f32) (x4 : Vec Ideal S1024x1 .i32)
    (x5 : Vec Ideal S1x1024 .i32) (xs0 : Vec Ideal S1024x1 .f32) (r : Fin 1024) :
    k0_pay8 (F := Ideal) x0 x1 x3 x4 x5 xs0 (ix2 r (0 : Fin 1))
      = max (xs0 (ix2 r 0)) (Finset.univ.sup fun j : Fin 1024 =>
          if x4 (ix2 r 0) = x5 (ix2 0 j) then k0_pay5 (F := Ideal) x0 x1 x3 (ix2 r j) else ⊥) := by
  unfold k0_pay8
  rw [shapeCast_self, maximumf_apply]
  refine congrArg (max _) ?_
  refine (shapeCast_a_a1_apply _ _ r 0).trans ?_
  refine (Cert.LibRowMax.multiReduction_max_rows_apply _ _ _ _ _ r).trans ?_
  rw [ofBits_neg_inf, fold_max_bot]
  refine congrArg (Finset.sup Finset.univ) (funext fun j => ?_)
  rw [select_apply, broadcast_apply]
  exact if_congr (pay6_at x4 x5 r j) rfl ofBits_neg_inf

/-- The tile's hardest-unlike value: the infimum, over the tile's columns not alike to the row, of the shifted squared
    distances. -/
theorem pay7_at (x0 x1 : Vec Ideal S1024x128 .bf16) (x3 : Vec Ideal S1x1024 .f32) (x4 : Vec Ideal S1024x1 .i32)
    (x5 : Vec Ideal S1x1024 .i32) (r : Fin 1024) :
    k0_pay7 (F := Ideal) x0 x1 x3 x4 x5 (ix2 r (0 : Fin 1))
      = Finset.univ.inf fun j : Fin 1024 =>
          if x4 (ix2 r 0) = x5 (ix2 0 j) then ⊤ else k0_pay5 (F := Ideal) x0 x1 x3 (ix2 r j) := by
  unfold k0_pay7
  refine (shapeCast_a_a1_apply _ _ r 0).trans ?_
  refine (multiReduction_min_rows_apply _ _ _ _ _ r).trans ?_
  rw [ofBits_pos_inf, fold_min_top]
  refine congrArg (Finset.inf Finset.univ) (funext fun j => ?_)
  rw [select_apply, broadcast_apply]
  exact if_congr (pay6_at x4 x5 r j) ofBits_pos_inf rfl

/-- The running hardest-unlike value after a tile: the carried value against the tile's. -/
theorem pay1_at (v29 v35 : Vec Ideal S1024x1 .f32) (r : Fin 1024) :
    k0_pay1 (F := Ideal) v29 v35 (ix2 r (0 : Fin 1)) = min (v35 (ix2 r 0)) (v29 (ix2 r 0)) := by
  unfold k0_pay1
  rw [shapeCast_self]
  rfl

/-- The row's hinge as the last tile finishes it: the row's squared norm added back to both mined values, the clip, the
    root, the margin, the clamp at zero. -/
theorem pay2_at (x2 a b : Vec Ideal S1024x1 .f32) (r : Fin 1024) :
    k0_pay2 (F := Ideal) x2 a b (ix2 r (0 : Fin 1))
      = max ((Ideal.sqrt (max eps (a (ix2 r 0) + x2 (ix2 r 0))) - Ideal.sqrt (max eps (b (ix2 r 0) + x2 (ix2 r 0)))) + margin) zero := by
  unfold k0_pay2
  rw [shapeCast_self]
  rfl

/-- The first tile starts the hardest-alike accumulator at bottom … -/
theorem pay3_at (y : S1024x1.Idx) : k0_pay3 (F := Ideal) y = ⊥ := by
  unfold k0_pay3
  rw [shapeCast_self]
  exact ofBits_neg_inf

/-- … and the hardest-unlike accumulator at top. -/
theorem pay4_at (y : S1024x1.Idx) : k0_pay4 (F := Ideal) y = ⊤ := by
  unfold k0_pay4
  rw [shapeCast_self]
  exact ofBits_pos_inf

end Cert.TileValue

end
-- ==== Proof.TileFold.lean ====
/-
  Suprema and infima over the columns below a bound, taken a block of 1024 columns at a time.

  For a family f over the 8192 columns, pSup f n is the supremum of f over the columns below n, and pInf f n the
  infimum. Below 0 there is no column, so they are bottom and top; below 8192 lies every column. The columns below
  1024 (J + 1) are the columns below 1024 J together with the block of columns 1024 J + jj for jj below 1024, so the
  supremum over them is the larger of the supremum so far and the block's supremum, and dually for the infimum.
-/
import Idealize.ShloMosaic.PureOps.Ideal

noncomputable section

namespace Cert.TileFold

/-- The supremum of f over the columns below n. -/
def pSup (f : Fin 8192 → EReal) (n : ℕ) : EReal := (Finset.univ.filter fun j : Fin 8192 => j.val < n).sup f
/-- The infimum of f over the columns below n. -/
def pInf (f : Fin 8192 → EReal) (n : ℕ) : EReal := (Finset.univ.filter fun j : Fin 8192 => j.val < n).inf f

theorem pSup_zero (f : Fin 8192 → EReal) : pSup f 0 = ⊥ := by
  unfold pSup
  rw [Finset.filter_false_of_mem fun j _ => Nat.not_lt_zero _]
  exact Finset.sup_empty

theorem pInf_zero (f : Fin 8192 → EReal) : pInf f 0 = ⊤ := by
  unfold pInf
  rw [Finset.filter_false_of_mem fun j _ => Nat.not_lt_zero _]
  exact Finset.inf_empty

theorem pSup_all (f : Fin 8192 → EReal) : pSup f 8192 = Finset.univ.sup f := by
  unfold pSup
  rw [Finset.filter_true_of_mem fun j _ => j.isLt]

theorem pInf_all (f : Fin 8192 → EReal) : pInf f 8192 = Finset.univ.inf f := by
  unfold pInf
  rw [Finset.filter_true_of_mem fun j _ => j.isLt]

/-- Column jj of block J. -/
def colOf (J : ℕ) (hJ : J < 8) (jj : Fin 1024) : Fin 8192 := ⟨1024 * J + jj.val, by have := jj.isLt; omega⟩

/-- The columns below 1024 (J + 1) are those below 1024 J together with block J. -/
theorem cols_step (J : ℕ) (hJ : J < 8) :
    (Finset.univ.filter fun j : Fin 8192 => j.val < 1024 * (J + 1))
      = (Finset.univ.filter fun j : Fin 8192 => j.val < 1024 * J) ∪ Finset.univ.image (colOf J hJ) := by
  ext j
  simp only [Finset.mem_filter, Finset.mem_univ, true_and, Finset.mem_union, Finset.mem_image]
  constructor
  · intro h
    by_cases hlt : j.val < 1024 * J
    · exact Or.inl hlt
    · refine Or.inr ⟨⟨j.val - 1024 * J, by omega⟩, Fin.ext ?_⟩
      show 1024 * J + (j.val - 1024 * J) = j.val
      omega
  · rintro (h | ⟨jj, rfl⟩)
    · omega
    · show 1024 * J + jj.val < 1024 * (J + 1)
      have := jj.isLt
      omega

theorem pSup_step (f : Fin 8192 → EReal) (J : ℕ) (hJ : J < 8) :
    pSup f (1024 * (J + 1))
      = max (pSup f (1024 * J)) (Finset.univ.sup fun jj : Fin 1024 => f ⟨1024 * J + jj.val, by have := jj.isLt; omega⟩) := by
  unfold pSup
  rw [cols_step J hJ, Finset.sup_union, Finset.sup_image]
  rfl

theorem pInf_step (f : Fin 8192 → EReal) (J : ℕ) (hJ : J < 8) :
    pInf f (1024 * (J + 1))
      = min (pInf f (1024 * J)) (Finset.univ.inf fun jj : Fin 1024 => f ⟨1024 * J + jj.val, by have := jj.isLt; omega⟩) := by
  unfold pInf
  rw [cols_step J hJ, Finset.inf_union, Finset.inf_image]
  rfl

end Cert.TileFold

end
-- ==== Proof.KiTile.lean ====
/-
  From tiles to rows. Fix a row block. Walking its eight column blocks in order, after column block J the running
  maximum of row r is the supremum, over the columns below 1024 (J + 1), of the row's shifted squared distances to
  the rows alike to it (bottom elsewhere), and the running minimum is the infimum over those columns of the shifted
  distances to the rows unlike it (top elsewhere): one column block's step is "max (resp. min) with that block's
  row maximum (resp. minimum)", and the columns below 1024 (J + 1) are those below 1024 J and that block's. After the
  last column block the extrema range over all 8192 columns, and the finished loss of the row is the kernel's form of
  the row's hinge. The output array is written back once per row block, so it ends holding every row's hinge.
-/
import proofs.«163923_j45037027066265_2_alg».proof.Proof.KiHost
import proofs.«163923_j45037027066265_2_alg».proof.Proof.KiPieces
import proofs.«163923_j45037027066265_2_alg».proof.Proof.TileValue
import proofs.«163923_j45037027066265_2_alg».proof.Proof.TileFold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.Triplet Cert.TileValue Cert.TileFold

variable (m : (ℓ : Loc nD τ sig) → Buf (Elt Ideal) ℓ)

/-! ## One column block's step, at blocks that are slices of the arrays -/

/-- Row i's shifted squared distances, masked to the rows alike to it (bottom elsewhere) and to the rows unlike it
    (top elsewhere). -/
def mPos (x : SX.Idx → EReal) (lab : ST.Idx → BitVec 32) (i : Fin 8192) : Fin 8192 → EReal :=
  fun j => if lab (ix1 i) = lab (ix1 j) then shifted x i j else ⊥
def mNeg (x : SX.Idx → EReal) (lab : ST.Idx → BitVec 32) (i : Fin 8192) : Fin 8192 → EReal :=
  fun j => if lab (ix1 i) = lab (ix1 j) then ⊤ else shifted x i j

section Step

variable (x : SX.Idx → EReal) (lab : ST.Idx → BitVec 32) (row col : Fin 1024 → Fin 8192)
  (x0 x1 : Vec Ideal S1024x128 .bf16) (x2 : Vec Ideal S1024x1 .f32) (x3 : Vec Ideal S1x1024 .f32)
  (x4 : Vec Ideal S1024x1 .i32) (x5 : Vec Ideal S1x1024 .i32)
  (h0 : ∀ r d, x0 (ix2 r d) = x (ix2 (row r) d)) (h1 : ∀ j d, x1 (ix2 j d) = x (ix2 (col j) d))
  (h2 : ∀ r, x2 (ix2 r (0 : Fin 1)) = sqn x (row r)) (h3 : ∀ j, x3 (ix2 (0 : Fin 1) j) = sqn x (col j))
  (h4 : ∀ r, x4 (ix2 r (0 : Fin 1)) = lab (ix1 (row r))) (h5 : ∀ j, x5 (ix2 (0 : Fin 1) j) = lab (ix1 (col j)))

include h0 h1 h3 in
theorem tile_shifted (r j : Fin 1024) : k0_pay5 (F := Ideal) x0 x1 x3 (ix2 r j) = shifted x (row r) (col j) := by
  rw [pay5_at, h3]
  unfold shifted gram
  exact congrArg (fun z => sqn x (col j) - two * z) (Finset.sum_congr rfl fun d _ => by rw [h0, h1])

include h0 h1 h3 h4 h5 in
theorem max_step (xs0 : Vec Ideal S1024x1 .f32) (r : Fin 1024) :
    k0_pay8 (F := Ideal) x0 x1 x3 x4 x5 xs0 (ix2 r (0 : Fin 1))
      = max (xs0 (ix2 r 0)) (Finset.univ.sup fun j : Fin 1024 => mPos x lab (row r) (col j)) := by
  rw [pay8_at]
  refine congrArg (max _) (Finset.sup_congr rfl fun j _ => ?_)
  unfold mPos
  rw [tile_shifted x row col x0 x1 x3 h0 h1 h3, h4, h5]

include h0 h1 h3 h4 h5 in
theorem min_step (xs1 : Vec Ideal S1024x1 .f32) (r : Fin 1024) :
    k0_pay1 (F := Ideal) (k0_pay7 (F := Ideal) x0 x1 x3 x4 x5) xs1 (ix2 r (0 : Fin 1))
      = min (xs1 (ix2 r 0)) (Finset.univ.inf fun j : Fin 1024 => mNeg x lab (row r) (col j)) := by
  rw [pay1_at, pay7_at]
  refine congrArg (min _) (Finset.inf_congr rfl fun j _ => ?_)
  unfold mNeg
  rw [tile_shifted x row col x0 x1 x3 h0 h1 h3, h4, h5]

end Step

/-! ## The invariant over the grid points -/

/-- The columns of column block n % 8 are the next 1024 columns. -/
theorem pSup_next (f : Fin 8192 → EReal) (n : ℕ) (hn : n < cfg0.N) (p : EReal) (hp : p = pSup f (1024 * (n % 8))) :
    max p (Finset.univ.sup fun j : Fin 1024 => f (colOf n hn j)) = pSup f (1024 * (n % 8 + 1)) := by
  rw [hp, pSup_step f (n % 8) (Nat.mod_lt _ (by decide))]; rfl
theorem pInf_next (f : Fin 8192 → EReal) (n : ℕ) (hn : n < cfg0.N) (p : EReal) (hp : p = pInf f (1024 * (n % 8))) :
    min p (Finset.univ.inf fun j : Fin 1024 => f (colOf n hn j)) = pInf f (1024 * (n % 8 + 1)) := by
  rw [hp, pInf_step f (n % 8) (Nat.mod_lt _ (by decide))]; rfl

theorem inv (c : Dev nD) : ∀ (n : ℕ) (hn : n < cfg0.N) (r : Fin 1024),
    (outsAt m c n hn).2.1 (ix2 r (0 : Fin 1)) = pSup (mPos (xx m c) (tt m c) (rowOf n hn r)) (1024 * (n % 8 + 1))
    ∧ (outsAt m c n hn).2.2 (ix2 r (0 : Fin 1)) = pInf (mNeg (xx m c) (tt m c) (rowOf n hn r)) (1024 * (n % 8 + 1)) := by
  intro n
  induction n with
  | zero =>
    intro hn r
    have e := outsAt_A m c ⟨0, hn⟩ (Nat.zero_mod _) (by show ¬ (0 : ℕ) % 8 = 7; decide)
    have hs : ∀ r d, (iblk m c 0 ⟨0, hn⟩ : S1024x128.Idx → EReal) (ix2 r d) = xx m c (ix2 (rowOf 0 hn r) d) := blk0_at m c ⟨0, hn⟩
    constructor
    · rw [e]; dsimp only
      rw [smaxA_eq]
      refine (max_step (xx m c) (tt m c) (rowOf 0 hn) (colOf 0 hn) _ _ _ _ _ (blk0_at m c ⟨0, hn⟩) (blk1_at m c ⟨0, hn⟩) (blk3_at m c ⟨0, hn⟩) (blk4_at m c ⟨0, hn⟩) (blk5_at m c ⟨0, hn⟩) _ r).trans ?_
      exact pSup_next _ 0 hn _ (by rw [pay3_at]; exact (pSup_zero _).symm)
    · rw [e]; dsimp only
      rw [sminA_eq]
      refine (min_step (xx m c) (tt m c) (rowOf 0 hn) (colOf 0 hn) _ _ _ _ _ (blk0_at m c ⟨0, hn⟩) (blk1_at m c ⟨0, hn⟩) (blk3_at m c ⟨0, hn⟩) (blk4_at m c ⟨0, hn⟩) (blk5_at m c ⟨0, hn⟩) _ r).trans ?_
      exact pInf_next _ 0 hn _ (by rw [pay4_at]; exact (pInf_zero _).symm)
  | succ n ih =>
    intro hn r
    have hN : cfg0.N = 64 := N_0
    by_cases h0 : (n + 1) % 8 = 0
    · have h7 : ¬ (n + 1) % 8 = 7 := by omega
      have e := outsAt_A m c ⟨n + 1, hn⟩ h0 h7
      constructor
      · rw [e]; dsimp only
        rw [smaxA_eq]
        refine (max_step (xx m c) (tt m c) (rowOf (n + 1) hn) (colOf (n + 1) hn) _ _ _ _ _ (blk0_at m c ⟨n + 1, hn⟩) (blk1_at m c ⟨n + 1, hn⟩) (blk3_at m c ⟨n + 1, hn⟩) (blk4_at m c ⟨n + 1, hn⟩) (blk5_at m c ⟨n + 1, hn⟩) _ r).trans ?_
        exact pSup_next _ (n + 1) hn _ (by rw [pay3_at, h0]; exact (pSup_zero _).symm)
      · rw [e]; dsimp only
        rw [sminA_eq]
        refine (min_step (xx m c) (tt m c) (rowOf (n + 1) hn) (colOf (n + 1) hn) _ _ _ _ _ (blk0_at m c ⟨n + 1, hn⟩) (blk1_at m c ⟨n + 1, hn⟩) (blk3_at m c ⟨n + 1, hn⟩) (blk4_at m c ⟨n + 1, hn⟩) (blk5_at m c ⟨n + 1, hn⟩) _ r).trans ?_
        exact pInf_next _ (n + 1) hn _ (by rw [pay4_at, h0]; exact (pInf_zero _).symm)
    · have hrow : rowOf n (Nat.lt_of_succ_lt hn) r = rowOf (n + 1) hn r := Fin.ext (by show 1024 * (n / 8) + r.val = 1024 * ((n + 1) / 8) + r.val; omega)
      have hcnt : 1024 * (n % 8 + 1) = 1024 * ((n + 1) % 8) := by omega
      have ihr := ih (Nat.lt_of_succ_lt hn) r
      rw [hrow, hcnt] at ihr
      by_cases h7 : (n + 1) % 8 = 7
      · have e := outsAt_C m c ⟨n + 1, hn⟩ h0 h7
        constructor
        · rw [e]; dsimp only
          rw [smaxC_eq]
          refine (max_step (xx m c) (tt m c) (rowOf (n + 1) hn) (colOf (n + 1) hn) _ _ _ _ _ (blk0_at m c ⟨n + 1, hn⟩) (blk1_at m c ⟨n + 1, hn⟩) (blk3_at m c ⟨n + 1, hn⟩) (blk4_at m c ⟨n + 1, hn⟩) (blk5_at m c ⟨n + 1, hn⟩) _ r).trans ?_
          exact pSup_next _ (n + 1) hn _ ihr.1
        · rw [e]; dsimp only
          rw [sminC_eq]
          refine (min_step (xx m c) (tt m c) (rowOf (n + 1) hn) (colOf (n + 1) hn) _ _ _ _ _ (blk0_at m c ⟨n + 1, hn⟩) (blk1_at m c ⟨n + 1, hn⟩) (blk3_at m c ⟨n + 1, hn⟩) (blk4_at m c ⟨n + 1, hn⟩) (blk5_at m c ⟨n + 1, hn⟩) _ r).trans ?_
          exact pInf_next _ (n + 1) hn _ ihr.2
      · have e := outsAt_B m c ⟨n + 1, hn⟩ h0 h7
        constructor
        · rw [e]; dsimp only
          rw [smaxB_eq]
          refine (max_step (xx m c) (tt m c) (rowOf (n + 1) hn) (colOf (n + 1) hn) _ _ _ _ _ (blk0_at m c ⟨n + 1, hn⟩) (blk1_at m c ⟨n + 1, hn⟩) (blk3_at m c ⟨n + 1, hn⟩) (blk4_at m c ⟨n + 1, hn⟩) (blk5_at m c ⟨n + 1, hn⟩) _ r).trans ?_
          exact pSup_next _ (n + 1) hn _ ihr.1
        · rw [e]; dsimp only
          rw [sminB_eq]
          refine (min_step (xx m c) (tt m c) (rowOf (n + 1) hn) (colOf (n + 1) hn) _ _ _ _ _ (blk0_at m c ⟨n + 1, hn⟩) (blk1_at m c ⟨n + 1, hn⟩) (blk3_at m c ⟨n + 1, hn⟩) (blk4_at m c ⟨n + 1, hn⟩) (blk5_at m c ⟨n + 1, hn⟩) _ r).trans ?_
          exact pInf_next _ (n + 1) hn _ ihr.2

/-! ## A finished row -/

theorem out_at (c : Dev nD) (t : Fin cfg0.N) (h7 : t.val % 8 = 7) (r : Fin 1024) :
    (outsAt m c t.val t.isLt).1 (ix2 r (0 : Fin 1)) = kRow (xx m c) (tt m c) (rowOf t.val t.isLt r) := by
  have h0 : ¬ t.val % 8 = 0 := by omega
  have hi := inv m c t.val t.isLt r
  have e := outsAt_C m c t h0 h7
  have hall : 1024 * (t.val % 8 + 1) = 8192 := by omega
  rw [hall, pSup_all, pInf_all] at hi
  have e1 : (outsAt m c t.val t.isLt).1 = k0_pay2 (F := Ideal) (iblk m c 2 t) (outsAt m c t.val t.isLt).2.1 (outsAt m c t.val t.isLt).2.2 := by
    rw [e]; dsimp only; rw [outC_eq, smaxC_eq, sminC_eq]
  rw [e1, pay2_at, hi.1, hi.2, blk2_at]
  rfl

/-! ## The output array after the run -/

/-- Every row's hinge, as a column. -/
def Gout (c : Dev nD) : S8192x1.Idx → EReal := fun i => kRow (xx m c) (tt m c) ⟨(i 0).val, idx2_lt0 i⟩

theorem flushed_eq (c : Dev nD) (t : Fin cfg0.N) (hf : (cfg0.win 6).flush t = true) :
    (dats m 0 c).flushed 6 t = ((cfg0.win 6).blk t).view.read (Elt Ideal) (Gout m c) := by
  show (cfg0.win 6).cut (grid0.coords t) ((dats m 0 c).after 6 t) = _
  rw [after_6]
  have h7 := (flush0_6 t).mp hf
  obtain ⟨-, -, -, -, -, -, e0, e1⟩ := idx_row t
  funext y
  obtain ⟨r, u, rfl⟩ : ∃ (r : Fin 1024) (u : Fin 1), y = ix2 r u := ⟨y 0, y 1, eq_ix2 y⟩
  obtain rfl : u = 0 := Subsingleton.elim _ _
  show (outsAt m c t.val t.isLt).1 (ix2 r (0 : Fin 1)) = Gout m c (((cfg0.win 6).blk t).view.emb (ix2 r (0 : Fin 1)))
  rw [out_at m c t h7 r]
  unfold Gout
  refine congrArg _ (Fin.ext ?_)
  show 1024 * (t.val / 8) + r.val = win0_6.index t (0 : Fin 2) * 1024 + 1 * r.val
  omega

theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v8).slice (win0_6.rect t)).set ↔ _
  rw [View.set_slice_whole, Rect.mem_set_unit]
  exact Iff.rfl

theorem cover6 (i : S8192x1.Idx) : ∃ t : Fin cfg0.N, (cfg0.win 6).flush t = true ∧ i ∈ ((cfg0.win 6).blk t).view.set := by
  have hN : cfg0.N = 64 := N_0
  have hi0 : (i 0).val < 8192 := (i 0).isLt
  have hi1 : (i 1).val < 1 := (i 1).isLt
  let t : Fin cfg0.N := ⟨8 * ((i 0).val / 1024) + 7, by omega⟩
  refine ⟨t, (flush0_6 t).mpr (by show (8 * ((i 0).val / 1024) + 7) % 8 = 7; omega), ?_⟩
  rw [mem_blk6]
  obtain ⟨-, -, -, -, -, -, e0, e1⟩ := idx_row t
  have ht : t.val = 8 * ((i 0).val / 1024) + 7 := rfl
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1 ≤ (i 1).val ∧ (i 1).val < win0_6.index t (1 : Fin 2) * 1 + 1; omega

theorem final6 (c : Dev nD) : (dats m 0 c).arrAt 6 cfg0.N = Gout m c :=
  (dats m 0 c).arrAt_eq_of_cover 6 (Gout m c) (fun t hf => flushed_eq m c t hf) (cover6)

end Cert.KernelIdeal.Hand

end
-- ==== Proof.TailValue.lean ====
/-
  The end of the kernel program, read over the extended reals: the column of the 8192 rows' hinges is summed over both
  of its axes from the word of zero and the total is divided by the word of the row count. The column has one entry per
  row (its second axis has extent one), so the sum over its index set is the sum over the rows; every operation is exact
  here, the host's division being the extended reals' `Ideal.div`. The two words are left as the words they are: they
  are the constants `zero` and `count` of the claim's mathematics.
-/
import proofs.«163923_j45037027066265_2_alg».proof.Proof.Gen.KernelIdeal
import proofs.«163923_j45037027066265_2_alg».proof.Proof.Spec
import Idealize.ShloMosaic.Lib.ValueIdx
import Idealize.ShloMosaic.PureOps.Ideal.Laws

noncomputable section

open scoped BigOperators

namespace Cert.TailValue

open Cert.KernelIdeal Cert.KernelIdeal.Gen Idealize.ShloMosaic Idealize.ShloMosaic.ValueIdx

/-- The mean of a column of hinges, for any proofs of the two shape facts the host operations cite: the total sum from
    the zero word, divided by the count's word, at the one index of the rank-zero result. -/
theorem tail_eq' (h : S8192x1.ReducesTo [0, 1] S_) (hu : 0 < S_.numel) (G : S8192x1.Idx → EReal) (g : Fin 8192 → EReal)
    (hG : ∀ i : Fin 8192, G (ix2 i (0 : Fin 1)) = g i) :
    Host.divf (F := Ideal) (Host.reduceAdd (F := Ideal) G (constant (F := Ideal) S_ .f32 0x00000000#32) h hu)
        (constant (F := Ideal) S_ .f32 0x46000000#32)
      = fun _ => Ideal.div (Cert.Triplet.zero + ∑ i : Fin 8192, g i) Cert.Triplet.count := by
  funext y
  show Ideal.div (Ideal.hostReduceAdd h G (Ideal.ofBits .f32 0x00000000#32) y) (Ideal.ofBits .f32 0x46000000#32) = _
  rw [Ideal.hostReduceAdd_total h (fun b => b.elim0) G _ y]
  refine congrArg (fun s => Ideal.div (Cert.Triplet.zero + s) Cert.Triplet.count) ?_
  exact (sum_idx2 G).trans (Finset.sum_congr rfl fun a _ => (Fin.sum_univ_one _).trans (hG a))

/-- The same at the program's own two facts. -/
theorem tail_eq (G : S8192x1.Idx → EReal) (g : Fin 8192 → EReal) (hG : ∀ i : Fin 8192, G (ix2 i (0 : Fin 1)) = g i) :
    Host.divf (F := Ideal) (Host.reduceAdd (F := Ideal) G (constant (F := Ideal) S_ .f32 0x00000000#32) reducesTo_S8192x1_S_d0_1 h_S_) (constant (F := Ideal) S_ .f32 0x46000000#32)
      = fun _ => Ideal.div (Cert.Triplet.zero + ∑ i : Fin 8192, g i) Cert.Triplet.count :=
  tail_eq' reducesTo_S8192x1_S_d0_1 h_S_ G g hG

end Cert.TailValue

end
-- ==== Proof.KiResult.lean ====
/-
  What the kernel's program returns at the ideal values: the mean, over the 8192 rows, of the rows' hinges in the
  kernel's form. The last host operations sum the output column over both its axes from zero and divide by 8192; the
  output column holds every row's hinge.
-/
import proofs.«163923_j45037027066265_2_alg».proof.Proof.KiLaunch
import proofs.«163923_j45037027066265_2_alg».proof.Proof.KiTile
import proofs.«163923_j45037027066265_2_alg».proof.Proof.TailValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.StableHlo Cert.Triplet

variable (m : (ℓ : Loc nD τ sig) → Buf (Elt Ideal) ℓ)

theorem result (c : Dev nD) :
    @Eq (S_.Idx → EReal) (Wfin m c (Proc.devRef .tc main_v10)) (fun _ => kLoss (xx m c) (tt m c)) := by
  have e : @Eq (S_.Idx → EReal) (Wfin m c (Proc.devRef .tc main_v10))
      (Host.divf (F := Ideal) (Host.reduceAdd (F := Ideal) (W1 m c (Proc.devRef .tc main_v8)) (constant (F := Ideal) S_ .f32 0x00000000#32) reducesTo_S8192x1_S_d0_1 h_S_)
        (constant (F := Ideal) S_ .f32 0x46000000#32)) := by
    dsimp only [Wfin, hostOps1]; after_results
  rw [e, W1_self]
  unfold outFinal
  rw [final6]
  exact Cert.TailValue.tail_eq (Gout m c) (fun i => kRow (xx m c) (tt m c) i) (fun i => rfl)

/-- Every weakly fair execution of the kernel's program terminates, nothing faulting, with the result at the kernel's
    closed form of the loss and both argument arrays as launched. -/
theorem kernel_run (ρ : Dev nD → PrngReg) : θ_run defs (onTc (τ := τ) (main (F := Ideal))) ⟨m, fun _ => 0, ρ⟩ (fun r => ∀ c : Dev nD,
      r.2.mem ((c.tc : Thread nD τ).loc main_v10) = (fun _ => kLoss (xx m c) (tt m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c (Proc.devRef .tc main_v10) (by decide)).trans (result m c),
     (h c (Proc.devRef .tc main_arg0) (by decide)).trans (Wfin_kept m c main_arg0 (by decide) (by decide) (by decide)),
     (h c (Proc.devRef .tc main_arg1) (by decide)).trans (Wfin_kept m c main_arg1 (by decide) (by decide) (by decide))⟩)
    (run_main m ρ)

end Cert.KernelIdeal.Hand

end
-- ==== Proof.RefValue.lean ====
/-
  The reference program's result is the closed form `Cert.Triplet.loss`.

  The reference is read one operation at a time, each at an index. The squared norms are the row sums of the squares
  (the sum's initial value is the real zero); the two broadcasts put s(i) and s(j) at (i, j); the product against the
  transpose is the inner product p(i, j); so the clipped root at (i, j) is the distance d(i, j). The label comparison
  at (i, j) is one exactly when the two labels agree, so the two selects are the two masked matrices. A reduction along
  a row with the maximum from minus infinity is the fold of the maximum from bottom over the row's coordinates, which is
  the finite supremum; with the minimum from plus infinity it is the finite infimum. The hinge, the sum over the rows
  (re-indexed from the rank-one indices to their coordinates) and the division give the mean.
-/
import proofs.«163923_j45037027066265_2_alg».proof.Proof.Spec
import proofs.«163923_j45037027066265_2_alg».proof.Proof.RefReadP

noncomputable section

open scoped BigOperators

namespace Cert.RefValue

open Cert.ReferenceIdeal Cert.ReferenceIdeal.Gen Cert.ReferenceIdeal.ReadP Cert.Triplet
open Idealize.ShloMosaic Idealize.ShloMosaic.ValueIdx Idealize.ShloMosaic.StableHlo

/-- The embeddings and the labels as the reference's arguments. -/
abbrev X : Type := (⟨S8192x128, .f32⟩ : BufTy).Contents (Elt Ideal)
abbrev T : Type := (⟨S8192, .i32⟩ : BufTy).Contents (Elt Ideal)

/-! ## The index maps at coordinates -/

theorem idx_v1 (i : Fin 8192) (k : Fin 128) : idx_main_v1 (ix1 i) k = ix2 i k :=
  funext fun a => Fin.ext (by match a with | ⟨0, _⟩ => rfl | ⟨1, _⟩ => rfl)

theorem idx_v2v4 (i j : Fin 8192) : idx_main_v2 (idx_main_v4 (ix2 i j)) = ix1 i :=
  funext fun a => Fin.ext (by match a with | ⟨0, _⟩ => rfl)

theorem idx_v3v5 (i j : Fin 8192) : idx_main_v3 (idx_main_v5 (ix2 i j)) = ix1 j :=
  funext fun a => Fin.ext (by match a with | ⟨0, _⟩ => rfl)

theorem idx_v8l (i j : Fin 8192) (k : Fin 128) : lidx_main_v8 (ix2 i j) k = ix2 i k :=
  funext fun a => Fin.ext (by match a with | ⟨0, _⟩ => rfl | ⟨1, _⟩ => rfl)

theorem idx_v8r (i j : Fin 8192) (k : Fin 128) : idx_main_v7 (ridx_main_v8 (ix2 i j) k) = ix2 j k :=
  funext fun a => Fin.ext (by match a with | ⟨0, _⟩ => rfl | ⟨1, _⟩ => rfl)

theorem idx_v14v16 (i j : Fin 8192) : idx_main_v14 (idx_main_v16 (ix2 i j)) = ix1 i :=
  funext fun a => Fin.ext (by match a with | ⟨0, _⟩ => rfl)

theorem idx_v15v17 (i j : Fin 8192) : idx_main_v15 (idx_main_v17 (ix2 i j)) = ix1 j :=
  funext fun a => Fin.ext (by match a with | ⟨0, _⟩ => rfl)

/-! ## The distance matrix -/

/-- The row sums of the squares are the squared norms. -/
theorem v1_eq (x0 : X) (i : Fin 8192) : val_main_v1 (F := Ideal) x0 (ix1 i) = sqn x0 i := by
  rw [val_main_v1_apply, val_main_cst_apply]
  show Ideal.ofBits .f32 0x00000000#32 + _ = _
  rw [Ideal.ofBits_zero_f32, zero_add]
  unfold sqn
  refine Finset.sum_congr rfl fun k _ => ?_
  rw [val_main_v0_apply, idx_v1]
  rfl

theorem v6_eq (x0 : X) (i j : Fin 8192) : val_main_v6 (F := Ideal) x0 (ix2 i j) = sqn x0 i + sqn x0 j := by
  rw [val_main_v6_apply, val_main_v4_apply, val_main_v5_apply, val_main_v2_apply, val_main_v3_apply,
    idx_v2v4, idx_v3v5, v1_eq, v1_eq]
  rfl

/-- The product against the transpose is the inner product of the two rows. -/
theorem v8_eq (x0 : X) (i j : Fin 8192) : val_main_v8 (F := Ideal) x0 (ix2 i j) = gram x0 i j := by
  rw [val_main_v8_apply]
  unfold gram
  refine Finset.sum_congr rfl fun k _ => ?_
  rw [val_main_v7_apply, idx_v8l, idx_v8r]

theorem v11_eq (x0 : X) (i j : Fin 8192) :
    val_main_v11 (F := Ideal) x0 (ix2 i j) = (sqn x0 i + sqn x0 j) - two * gram x0 i j := by
  rw [val_main_v11_apply, val_main_v10_apply, val_main_v9_apply, val_main_cst_0_apply, v6_eq, v8_eq]
  rfl

theorem v13_eq (x0 : X) (i j : Fin 8192) : val_main_v13 (F := Ideal) x0 (ix2 i j) = dist x0 i j := by
  rw [val_main_v13_apply, val_main_v12_apply, val_main_call0_v1_apply, val_main_call0_v0_apply,
    val_main_cst_1_apply, v11_eq]
  rfl

/-! ## The masks -/

/-- A select on the equality comparison of two words is the case split on their equality. -/
theorem select_cmpi_eq {α : Type} {w : Nat} (a b : BitVec w) (u v : α) :
    Scalar.select (IntOp.cmpi .eq a b) u v = if a = b then u else v := by
  by_cases h : a = b
  · rw [if_pos h]; subst h; simp [IntOp.cmpi, Scalar.select]
  · rw [if_neg h]
    have hb : (a == b) = false := beq_eq_false_iff_ne.mpr h
    show (if BitVec.ofBool (a == b) = 1#1 then u else v) = v
    rw [hb]
    exact if_neg (by decide)

theorem v18_eq (x1 : T) (i j : Fin 8192) :
    val_main_v18 (F := Ideal) x1 (ix2 i j) = IntOp.cmpi .eq (x1 (ix1 i)) (x1 (ix1 j)) := by
  rw [val_main_v18_apply, val_main_v16_apply, val_main_v17_apply, val_main_v14_apply, val_main_v15_apply,
    idx_v14v16, idx_v15v17]

/-- The pattern of minus infinity is bottom, that of plus infinity top. -/
theorem ofBits_ninf : Ideal.ofBits .f32 0xFF800000#32 = ⊥ := by simp [Ideal.ofBits, Ideal.ieee]
theorem ofBits_pinf : Ideal.ofBits .f32 0x7F800000#32 = ⊤ := by simp [Ideal.ofBits, Ideal.ieee]

theorem v19_eq (x0 : X) (x1 : T) (i j : Fin 8192) :
    val_main_v19 (F := Ideal) x0 x1 (ix2 i j) = if x1 (ix1 i) = x1 (ix1 j) then dist x0 i j else ⊥ := by
  rw [val_main_v19_apply, v18_eq, v13_eq, val_main_call1_v1_apply, val_main_call1_v0_apply, val_main_cst_2_apply,
    select_cmpi_eq]
  show (if x1 (ix1 i) = x1 (ix1 j) then dist x0 i j else Ideal.ofBits .f32 0xFF800000#32) = _
  rw [ofBits_ninf]

theorem v21_eq (x0 : X) (x1 : T) (i j : Fin 8192) :
    val_main_v21 (F := Ideal) x0 x1 (ix2 i j) = if x1 (ix1 i) = x1 (ix1 j) then ⊤ else dist x0 i j := by
  rw [val_main_v21_apply, v18_eq, v13_eq, val_main_call2_v1_apply, val_main_call2_v0_apply, val_main_cst_4_apply,
    select_cmpi_eq]
  show (if x1 (ix1 i) = x1 (ix1 j) then Ideal.ofBits .f32 0x7F800000#32 else dist x0 i j) = _
  rw [ofBits_pinf]

/-! ## The row reductions -/

/-- The reduced index i with the column k put back is (i, k). -/
theorem lift_row (h : S8192x8192.Reduces [1] S8192) (i : Fin 8192) (k : Fin (S8192x8192.size 1)) :
    h.lift (ix1 i) k = ix2 i (⟨k.val, k.isLt⟩ : Fin 8192) := by
  funext c; apply Fin.ext
  fin_cases c <;> rfl

/-- The fold of the maximum from bottom over all coordinates is the finite supremum, that of the minimum from top the
    finite infimum. -/
theorem fold_max_bot {n : Nat} (f : Fin n → EReal) : (Finset.univ : Finset (Fin n)).fold max ⊥ f = Finset.univ.sup f := rfl
theorem fold_min_top {n : Nat} (f : Fin n → EReal) : (Finset.univ : Finset (Fin n)).fold min ⊤ f = Finset.univ.inf f := rfl

/-- A row reduction with the maximum from bottom is, at row i, the supremum over the columns. -/
theorem reduce_max (y : (⟨S8192x8192, .f32⟩ : BufTy).Contents (Elt Ideal)) (c : (⟨S_, .f32⟩ : BufTy).Contents (Elt Ideal))
    (g : Fin 8192 → Fin 8192 → EReal) (hy : ∀ i j, y (ix2 i j) = g i j) (hc : c (Shape.Idx.first h_S_) = (⊥ : EReal))
    (i : Fin 8192) :
    Host.reduce (FloatOps.maximumf (F := Ideal) (φ := .f32)) y c reducesTo_S8192x8192_S8192_d1 h_S_ (ix1 i)
      = Finset.univ.sup fun j : Fin 8192 => g i j := by
  have h : S8192x8192.Reduces [1] S8192 := by decide
  rw [Host.reduce_eq_fold_single (FloatOps.maximumf (F := Ideal) (φ := .f32)) y c reducesTo_S8192x8192_S8192_d1 h h_S_]
  have hf : (y ∘ h.lift (ix1 i)) = fun k : Fin 8192 => g i k :=
    funext fun k => by
      show y (h.lift (ix1 i) k) = _
      rw [lift_row h i k, hy]
      rfl
  rw [hc]
  refine Eq.trans ?_ (fold_max_bot _)
  exact congrArg (fun f => Finset.fold max (⊥ : EReal) f (Finset.univ : Finset (Fin 8192))) hf

/-- A row reduction with the minimum from top is, at row i, the infimum over the columns. -/
theorem reduce_min (y : (⟨S8192x8192, .f32⟩ : BufTy).Contents (Elt Ideal)) (c : (⟨S_, .f32⟩ : BufTy).Contents (Elt Ideal))
    (g : Fin 8192 → Fin 8192 → EReal) (hy : ∀ i j, y (ix2 i j) = g i j) (hc : c (Shape.Idx.first h_S_) = (⊤ : EReal))
    (i : Fin 8192) :
    Host.reduce (FloatOps.minimumf (F := Ideal) (φ := .f32)) y c reducesTo_S8192x8192_S8192_d1 h_S_ (ix1 i)
      = Finset.univ.inf fun j : Fin 8192 => g i j := by
  have h : S8192x8192.Reduces [1] S8192 := by decide
  rw [Host.reduce_eq_fold_single (FloatOps.minimumf (F := Ideal) (φ := .f32)) y c reducesTo_S8192x8192_S8192_d1 h h_S_]
  have hf : (y ∘ h.lift (ix1 i)) = fun k : Fin 8192 => g i k :=
    funext fun k => by
      show y (h.lift (ix1 i) k) = _
      rw [lift_row h i k, hy]
      rfl
  rw [hc]
  refine Eq.trans ?_ (fold_min_top _)
  exact congrArg (fun f => Finset.fold min (⊤ : EReal) f (Finset.univ : Finset (Fin 8192))) hf

theorem v20_eq (x0 : X) (x1 : T) (i : Fin 8192) : val_main_v20 (F := Ideal) x0 x1 (ix1 i) = hardPos x0 x1 i := by
  unfold val_main_v20 hardPos
  exact reduce_max _ _ _ (v19_eq x0 x1) (by rw [val_main_cst_3_apply]; exact ofBits_ninf) i

theorem v22_eq (x0 : X) (x1 : T) (i : Fin 8192) : val_main_v22 (F := Ideal) x0 x1 (ix1 i) = hardNeg x0 x1 i := by
  unfold val_main_v22 hardNeg
  exact reduce_min _ _ _ (v21_eq x0 x1) (by rw [val_main_cst_5_apply]; exact ofBits_pinf) i

/-! ## The hinge and the mean -/

theorem v26_eq (x0 : X) (x1 : T) (i : Fin 8192) : val_main_v26 (F := Ideal) x0 x1 (ix1 i) = rowLoss x0 x1 i := by
  rw [val_main_v26_apply, val_main_v25_apply, val_main_v23_apply, v20_eq, v22_eq, val_main_v24_apply,
    val_main_cst_6_apply, val_main_call3_v0_apply, val_main_call3_cst_apply]
  rfl

/-- The rank-one indices are their coordinates. -/
def idx1Equiv : S8192.Idx ≃ Fin 8192 where
  toFun j := j 0
  invFun := ix1
  left_inv j := (eq_ix1 j).symm
  right_inv _ := rfl

theorem v27_eq (x0 : X) (x1 : T) (j : S_.Idx) :
    val_main_v27 (F := Ideal) x0 x1 j = zero + ∑ i : Fin 8192, rowLoss x0 x1 i := by
  rw [val_main_v27_apply, val_main_cst_7_apply, ← Equiv.sum_comp idx1Equiv.symm]
  exact congrArg (_ + ·) (Finset.sum_congr rfl fun i _ => v26_eq x0 x1 i)

/-- The reference's result is the mean of the rows' hinges. -/
theorem ref_eq_loss (x0 : (⟨Cert.ReferenceIdeal.S8192x128, .f32⟩ : BufTy).Contents (Elt Ideal))
    (x1 : (⟨Cert.ReferenceIdeal.S8192, .i32⟩ : BufTy).Contents (Elt Ideal)) :
    Cert.ReferenceIdeal.ReadP.val_main_v28 (F := Ideal) x0 x1 = fun _ => Cert.Triplet.loss x0 x1 := by
  funext j
  rw [val_main_v28_apply, v27_eq, val_main_cst_8_apply]
  rfl

end Cert.RefValue

end
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.RowLaw.lean ====
/-
  The kernel's closed form equals the reference's closed form when every entry of the array is a real number.

  Write c(s, z) = sqrt (max eps (z + s)) for the clip and root applied after a real number s has been added. For a
  real s the map z ↦ c(s, z) is monotone on the extended reals (a sum with a fixed term, a maximum with a fixed term
  and the square root are each monotone) and sends top to top. A monotone map on a linear order passes through the
  infimum of a finite family when it fixes top (the value of the empty infimum), and through the supremum of a finite
  nonempty family. The masked supremum of a row runs over the rows alike to it, and a row is alike to itself, so that
  family is never empty. With real entries the shifted squared distance plus the row's squared norm is the full squared
  distance, so c(s(i), shifted(i, j)) is the reference's distance d(i, j), and both hinges agree row by row.
-/
import proofs.«163923_j45037027066265_2_alg».proof.Proof.Spec
import proofs.«163923_j45037027066265_2_alg».proof.Proof.LibReal

noncomputable section

open scoped BigOperators

namespace Cert.Triplet

open Idealize.ShloMosaic Idealize.ShloMosaic.ValueIdx Cert.LibReal

/-- The square root of the extended reals is monotone: below zero it is bottom, which is below everything. -/
theorem sqrt_mono : Monotone Ideal.sqrt := by
  intro a b hab
  induction a using EReal.rec with
  | bot => simp
  | top =>
    have hb : b = ⊤ := top_le_iff.mp hab
    rw [hb]
  | coe r =>
    induction b using EReal.rec with
    | bot => simp at hab
    | top => simp
    | coe s =>
      have hrs : r ≤ s := EReal.coe_le_coe_iff.mp hab
      rw [Ideal.sqrt_coe, Ideal.sqrt_coe]
      split_ifs with h1 h2 h3
      · exact le_refl _
      · exact bot_le
      · exact absurd (lt_of_le_of_lt hrs h3) h1
      · exact EReal.coe_le_coe_iff.mpr (Real.sqrt_le_sqrt hrs)

/-- The clip and root after adding s. -/
def clipRoot (s z : EReal) : EReal := Ideal.sqrt (max eps (z + s))

theorem clipRoot_mono (s : EReal) : Monotone (clipRoot s) := by
  intro a b hab
  exact sqrt_mono (max_le_max (le_refl _) (add_le_add hab (le_refl s)))

theorem clipRoot_top {s : EReal} (hs : IsReal s) : clipRoot s ⊤ = ⊤ := by
  obtain ⟨r, rfl⟩ := hs
  unfold clipRoot
  rw [EReal.top_add_coe, max_eq_right le_top, Ideal.sqrt_top]

/-- A monotone map that fixes top passes through a finite infimum. -/
theorem clipRoot_inf {s : EReal} (hs : IsReal s) {ι : Type*} (S : Finset ι) (g : ι → EReal) :
    clipRoot s (S.inf g) = S.inf fun j => clipRoot s (g j) :=
  Finset.comp_inf_eq_inf_comp_of_is_total (clipRoot s) (clipRoot_mono s) (clipRoot_top hs)

/-- The supremum of a family masked to bottom outside a set is the supremum over the set. -/
theorem sup_mask {ι : Type*} (S : Finset ι) (p : ι → Prop) [DecidablePred p] (a : ι → EReal) :
    (S.sup fun j => if p j then a j else ⊥) = (S.filter p).sup a := by
  rw [Finset.sup_ite, Finset.sup_bot, sup_bot_eq]

/-- A monotone map passes through the masked supremum of a family whose mask holds somewhere. -/
theorem clipRoot_sup_mask (s : EReal) {ι : Type*} (S : Finset ι) (p : ι → Prop) [DecidablePred p] (a : ι → EReal)
    (h : ∃ j ∈ S, p j) :
    clipRoot s (S.sup fun j => if p j then a j else ⊥) = S.sup fun j => if p j then clipRoot s (a j) else ⊥ := by
  have hne : (S.filter p).Nonempty := by
    obtain ⟨j, hj, hp⟩ := h
    exact ⟨j, Finset.mem_filter.mpr ⟨hj, hp⟩⟩
  rw [sup_mask, sup_mask, ← Finset.sup'_eq_sup hne, ← Finset.sup'_eq_sup hne,
    Finset.comp_sup'_eq_sup'_comp hne (clipRoot s) (clipRoot_mono s).map_sup]
  rfl

theorem two_real : IsReal two := by
  unfold two
  refine ⟨2, ?_⟩
  simp [Ideal.ofBits, Ideal.ieee]
  first
    | (norm_cast; norm_num; done)
    | (rw [← EReal.coe_mul]; norm_num; done)

/-- With real entries a row's squared norm and two rows' inner product are real numbers. -/
theorem sqn_real {x : SX.Idx → EReal} (hx : ∀ k, IsReal (x k)) (i : Fin 8192) : IsReal (sqn x i) :=
  IsReal.sum _ _ fun d _ => IsReal.mul (hx _) (hx _)

theorem gram_real {x : SX.Idx → EReal} (hx : ∀ k, IsReal (x k)) (i j : Fin 8192) : IsReal (gram x i j) :=
  IsReal.sum _ _ fun d _ => IsReal.mul (hx _) (hx _)

/-- For real numbers a, b, c: (a - b) + c = (c + a) - b. -/
theorem shift_real {a b c : EReal} (ha : IsReal a) (hb : IsReal b) (hc : IsReal c) : (a - b) + c = (c + a) - b := by
  obtain ⟨a, rfl⟩ := ha; obtain ⟨b, rfl⟩ := hb; obtain ⟨c, rfl⟩ := hc
  rw [← EReal.coe_sub, ← EReal.coe_add, ← EReal.coe_add, ← EReal.coe_sub]
  exact congrArg _ (by ring)

/-- The clip and root of the shifted squared distance, after the row's squared norm is added back, is the distance. -/
theorem clipRoot_shifted {x : SX.Idx → EReal} (hx : ∀ k, IsReal (x k)) (i j : Fin 8192) :
    clipRoot (sqn x i) (shifted x i j) = dist x i j := by
  unfold clipRoot shifted dist
  rw [shift_real (sqn_real hx j) (IsReal.mul two_real (gram_real hx i j)) (sqn_real hx i)]

theorem kPos_law {x : SX.Idx → EReal} (t : ST.Idx → BitVec 32) (hx : ∀ k, IsReal (x k)) (i : Fin 8192) :
    Ideal.sqrt (max eps (kPos x t i + sqn x i)) = hardPos x t i := by
  show clipRoot (sqn x i) (kPos x t i) = hardPos x t i
  unfold kPos hardPos
  rw [clipRoot_sup_mask (sqn x i) Finset.univ (fun j => t (ix1 i) = t (ix1 j)) (fun j => shifted x i j)
    ⟨i, Finset.mem_univ i, rfl⟩]
  exact Finset.sup_congr rfl fun j _ => by rw [clipRoot_shifted hx]

theorem kNeg_law {x : SX.Idx → EReal} (t : ST.Idx → BitVec 32) (hx : ∀ k, IsReal (x k)) (i : Fin 8192) :
    Ideal.sqrt (max eps (kNeg x t i + sqn x i)) = hardNeg x t i := by
  show clipRoot (sqn x i) (kNeg x t i) = hardNeg x t i
  unfold kNeg hardNeg
  rw [clipRoot_inf (sqn_real hx i)]
  refine Finset.inf_congr rfl fun j _ => ?_
  by_cases h : t (ix1 i) = t (ix1 j)
  · rw [if_pos h, if_pos h, clipRoot_top (sqn_real hx i)]
  · rw [if_neg h, if_neg h, clipRoot_shifted hx]

theorem kRow_eq_rowLoss {x : SX.Idx → EReal} (t : ST.Idx → BitVec 32) (hx : ∀ k, IsReal (x k)) (i : Fin 8192) :
    kRow x t i = rowLoss x t i := by
  unfold kRow rowLoss
  rw [kPos_law t hx i, kNeg_law t hx i]

theorem kLoss_eq_loss (x : SX.Idx → EReal) (t : ST.Idx → BitVec 32) (hx : ∀ k, Cert.LibReal.IsReal (x k)) :
    kLoss x t = loss x t := by
  unfold kLoss loss
  rw [Finset.sum_congr rfl fun i _ => kRow_eq_rowLoss t hx i]

end Cert.Triplet

end
-- ==== Proof.Finite.lean ====
/-
  The precondition says every entry of the array is a real number.

  The precondition compares the absolute value of every entry with plus infinity and reduces the comparisons by "and" over
  both axes, from 1, into a result with one index. That result being 1 says every comparison is 1, and one comparison
  being 1 says the entry's absolute value is below plus infinity, so the entry is a real number.
-/
import proofs.«163923_j45037027066265_2_alg».proof.Pre_finite_inputs
import proofs.«163923_j45037027066265_2_alg».proof.Proof.Gen.Pre_finite_inputs
import proofs.«163923_j45037027066265_2_alg».proof.Proof.LibReal
import Idealize.ShloMosaic.Lib.ReduceAll

noncomputable section

namespace Cert.Finite

open Idealize.ShloMosaic

theorem real_of_pre [Cert.Pre_finite_inputs.Facts] (x : FVec Ideal Cert.Pre_finite_inputs.S8192x128 .f32)
    (t : IVec Cert.Pre_finite_inputs.S8192 32) (h : Cert.Pre_finite_inputs.fn (F := Ideal) x t = fun _ => 1#1) :
    ∀ k, Cert.LibReal.IsReal (x k) := by
  intro k
  have e := congrFun h (fun a => a.elim0)
  dsimp only [Cert.Pre_finite_inputs.fn] at e
  have hk := Host.reduce_andi_all _ _ _ _ _ e k
  exact Cert.LibReal.elem_real Cert.Pre_finite_inputs.Facts.bcast_S_S8192x128 x k hk

end Cert.Finite

end
-- ==== Proof.lean ====
/-
  The certificate of a batch-hard triplet loss kernel against its reference.

  Both programs take 8192 embeddings of 128 coordinates and 8192 integer labels and return one number. Write s(i) for
  row i's squared norm, p(i,j) for the inner product of rows i and j, and call two rows alike when their labels agree.
  The reference forms every distance d(i,j) = sqrt (max eps ((s(i) + s(j)) - 2 p(i,j))), takes per row the largest
  distance to an alike row and the smallest distance to an unlike row, and returns the mean over the rows of
  max ((largest alike - smallest unlike) + margin) 0. The kernel walks the 8192 by 8192 pairs in tiles of 1024 by 1024:
  per row it keeps the running maximum over alike columns and the running minimum over unlike columns of the shifted
  squared distance s(j) - 2 p(i,j), which leaves out the row's own s(i); after the last column tile it adds s(i) back,
  clips at eps, takes the square roots and forms the row's hinge; the mean is taken outside.

  At the ideal values (an extended real for every float, every operation exact, the rounding of the embeddings to a
  shorter format the identity) the two results agree when every embedding entry is a real number, which is what the
  precondition says: then s(i) moves freely between the two groupings of the sum, and z |-> sqrt (max eps (z + s(i)))
  is monotone and sends plus infinity to plus infinity, so it passes through the infimum over the unlike columns
  (plus infinity when there is none) and through the supremum over the alike columns, which is attained at an alike
  column because every row is alike to itself.

  The three frames: each program runs to the end from any memory with zero counters, faults nowhere, and leaves its
  two argument arrays as they were. The kernel's program reads the rounded embeddings through two windows of one array
  (a row block and a column block); its run is @main as host operations, the tiled region, host operations, with that
  array held half and half by the two windows inside the region. Nothing was rewritten when the kernel was idealized,
  so the idealization claim is the trivial one.
-/
import proofs.«163923_j45037027066265_2_alg».proof.Defs
import proofs.«163923_j45037027066265_2_alg».proof.Proof.Gen.Kernel
import proofs.«163923_j45037027066265_2_alg».proof.Proof.Gen.KernelIdeal
import proofs.«163923_j45037027066265_2_alg».proof.Proof.Gen.ReferenceIdeal
import proofs.«163923_j45037027066265_2_alg».proof.Proof.Gen.Pre_finite_inputs
import proofs.«163923_j45037027066265_2_alg».proof.Proof.RefRunP
import proofs.«163923_j45037027066265_2_alg».proof.Proof.KbLaunch
import proofs.«163923_j45037027066265_2_alg».proof.Proof.KiResult
import proofs.«163923_j45037027066265_2_alg».proof.Proof.RefValue
import proofs.«163923_j45037027066265_2_alg».proof.Proof.RowLaw
import proofs.«163923_j45037027066265_2_alg».proof.Proof.Finite
import Idealize.ShloMosaic.Adequacy
import Idealize.ShloMosaic.Init

noncomputable section

namespace Cert.Proof

open Idealize.ShloMosaic Idealize.SL.Sem

/-- The word-level kernel program runs and keeps its arguments. -/
theorem frame_kernel : @Cert.frame_Kernel Cert.Kernel.Gen.facts Cert.Pre_finite_inputs.Gen.facts :=
  fun m ρ _ => Cert.Kernel.Hand.frame m ρ

/-- So does its idealization. -/
theorem frame_kernelIdeal : @Cert.frame_KernelIdeal Cert.KernelIdeal.Gen.facts Cert.Pre_finite_inputs.Gen.facts :=
  fun m ρ _ => Cert.KernelIdeal.Hand.frame m ρ

/-- And the reference: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both idealized programs, from memories agreeing on the arguments, return the same number: the kernel's program
    returns the kernel's form of the loss of its arguments, the reference's the reference's form of the loss of the
    same arguments, and the two forms agree on real embeddings. -/
theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => (fun _ => Cert.Triplet.kLoss (Cert.KernelIdeal.Hand.xx m c) (Cert.KernelIdeal.Hand.tt m c)),
    Cert.KernelIdeal.Hand.kernel_run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2]
  refine (Cert.ReferenceIdeal.ReadP.val_main_v28_eq _ _).trans ((Cert.RefValue.ref_eq_loss _ _).trans ?_)
  exact funext fun _ => (Cert.Triplet.kLoss_eq_loss _ _ (Cert.Finite.real_of_pre _ _ (hpre c))).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
